-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x32 .f32) (main_arg5 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S5000 : Shape := ⟨1, ![5000]⟩
abbrev S5000x1 : Shape := ⟨2, ![5000, 1]⟩

abbrev nBuf : Space → Nat
  | .hbm => 76
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x128, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x32, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x32, .f32⟩
  | .hbm, ⟨67, _⟩ => ⟨S850000x1, .f32⟩
  | .hbm, ⟨68, _⟩ => ⟨S850000x32, .f32⟩
  | .hbm, ⟨69, _⟩ => ⟨S850000x32, .f32⟩
  | .hbm, ⟨70, _⟩ => ⟨S_, .f32⟩
  | .hbm, ⟨71, _⟩ => ⟨S50000x32, .f32⟩
  | .hbm, ⟨72, _⟩ => ⟨S850000x1, .i32⟩
  | .hbm, ⟨73, _⟩ => ⟨S50000x32, .f32⟩
  | .hbm, ⟨74, _⟩ => ⟨S1x32, .f32⟩
  | .hbm, ⟨75, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x32_S5000x32_1_0_0_1_n_n_wf : DotDims.WF S5000x128 S128x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x32 : Shape := ⟨2, ![128, 32]⟩
abbrev S32 : Shape := ⟨1, ![32]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x32 : Shape := ⟨2, ![50000, 32]⟩
abbrev S850000x32 : Shape := ⟨2, ![850000, 32]⟩
abbrev S1x32 : Shape := ⟨2, ![1, 32]⟩
abbrev S50000x1 : Shape := ⟨2, ![50000, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S850000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .f32⟩
  | .hbm, ⟨49, _⟩ => ⟨S850000x1, .f32⟩
  | .hbm, ⟨50, _⟩ => ⟨S850000x128, .f32⟩
  | .hbm, ⟨51, _⟩ => ⟨S850000x128, .f32⟩
  | .hbm, ⟨52, _⟩ => ⟨S_, .f32⟩
  | .hbm, ⟨53, _⟩ => ⟨S50000x128, .f32⟩
  | .hbm, ⟨54, _⟩ => ⟨S850000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x32, .f32⟩
  | .hbm, ⟨63, _⟩ => ⟨S50000, .i32⟩
  | .hbm, ⟨64, _⟩ => ⟨S850000, .i32⟩
  | .hbm, ⟨65, _⟩ => ⟨S850000, .i32⟩
  | .hbm, ⟨66, _⟩ => ⟨S_, .f32⟩
  | .hbm, ⟨67, _⟩ => ⟨S850000, .f32⟩
  | .hbm, ⟨68, _⟩ => ⟨S_, .f32⟩
  | .hbm, ⟨69, _⟩ => ⟨S50000, .f32⟩
  | .hbm, ⟨70, _⟩ => ⟨S850000x1, .i32⟩
  | .hbm, ⟨71, _⟩ => ⟨S50000, .f32⟩
  | .hbm, ⟨72, _⟩ => ⟨S50000, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x32, .f32⟩
  | .hbm, ⟨101, _⟩ => ⟨S850000x1, .f32⟩
  | .hbm, ⟨102, _⟩ => ⟨S850000x32, .f32⟩
  | .hbm, ⟨103, _⟩ => ⟨S850000x32, .f32⟩
  | .hbm, ⟨104, _⟩ => ⟨S_, .f32⟩
  | .hbm, ⟨105, _⟩ => ⟨S50000x32, .f32⟩
  | .hbm, ⟨106, _⟩ => ⟨S850000x1, .i32⟩
  | .hbm, ⟨107, _⟩ => ⟨S50000x32, .f32⟩
  | .hbm, ⟨108, _⟩ => ⟨S1x32, .f32⟩
  | .hbm, ⟨109, _⟩ => ⟨S50000x32, .f32⟩
  | .hbm, ⟨110, _⟩ => ⟨S50000x32, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S50000, .f32⟩
  | .hbm, ⟨115, _⟩ => ⟨S50000, .f32⟩
  | .hbm, ⟨116, _⟩ => ⟨S50000x1, .f32⟩
  | .hbm, ⟨117, _⟩ => ⟨S50000x32, .f32⟩
  | .hbm, ⟨118, _⟩ => ⟨S50000x32, .f32⟩
  | .hbm, ⟨119, _⟩ => ⟨S50000x32, .f32⟩
  | .hbm, ⟨120, _⟩ => ⟨S_, .f32⟩
  | .hbm, ⟨121, _⟩ => ⟨S50000, .f32⟩
  | .hbm, ⟨122, _⟩ => ⟨S50000x1, .f32⟩
  | .hbm, ⟨123, _⟩ => ⟨S50000x1, .f32⟩
  | .hbm, ⟨124, _⟩ => ⟨S50000x32, .f32⟩
  | .hbm, ⟨125, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call1_cst : Ref sig .tc := ⟨.hbm, 111, rfl⟩
abbrev main_call1_v0 : Ref sig .tc := ⟨.hbm, 112, rfl⟩
abbrev main_call1_cst_0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_cst_1 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_v85 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x32_S50000x32_1_0_0_1_n_n_wf : DotDims.WF S50000x128 S128x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KernelExit.lean ====
/-
  The kernel program's run with its result named: every weakly fair execution terminates, nothing faulting, with the
  result array at what the buffer holds when the last kernel has written back its blocks (the contents at the last
  segment boundary), and the argument arrays as launched.

  The program is three kernels among three stretches of host operations. Its run is the launch over these six segments;
  each unscoped buffer's final contents are read off the last boundary. The frame claim keeps the arguments' equations
  from that reading; here the result's equation is kept as well.
-/
import proofs.«134392_j14113262535098_1_alg».proof.Proof.Gen.KernelIdeal.Frame

set_option maxRecDepth 16384

noncomputable section

namespace Cert.GraphConv.KernelExit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result read at the last boundary's contents. -/
theorem run_exit : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.GraphConv.KernelExit

end
-- ==== Proof.GraphConv.lean ====
/-
  The graph side of a two-layer graph convolution, as functions of the edge list, and the row-wise log-softmax it ends in.

  The graph has 50000 nodes and 800000 directed edges `e : i32[2, 800000]` (row 0 the sources, row 1 the targets), to which
  one self loop per node is appended, so every list below has 850000 entries. With `deg d` the number of edges ending at
  `d` (at least 1, the self loop) the weight of an edge `s → d` is `deg(s)^(-1/2) · deg(d)^(-1/2)`, and one propagation
  step sends a feature matrix `h` to the matrix whose row `d` is the sum over the edges `s → d` of `weight · h[s]`.
  A node number read from `e` is used as it stands: a negative source counts from the end (`fromEnd`), and what a gather
  or a scatter-add does with a number outside `0 … 49999` is whatever those operations do — both programs apply the same
  operations to the same numbers, so nothing here depends on it.

  Every definition is the reference's own composition of host operations, so that the reference's result is this
  network by unfolding, and is generic in the float instance.
-/
import proofs.«134392_j14113262535098_1_alg».proof.Proof.Gen.ReferenceIdeal

noncomputable section

namespace Cert.GraphConv

open Cert.ReferenceIdeal Cert.ReferenceIdeal.Facts₀ Idealize.ShloMosaic

variable {F : FTy → Type} [FloatOps F]

/-- The source of every edge: row 0 of the edge list, then the self loops `0 … 49999`. -/
def sources (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target of every edge: row 1 of the edge list, then the self loops `0 … 49999`. -/
def targets (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node number counts from the end: `v + 50000` where `v < 0`, `v` elsewhere. -/
def fromEnd (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- One aggregation step on 128 features over given lists of sources `s`, targets `d` and edge weights `wt`: row `d` of
    the result is the sum over the edges `s → d` of `weight · h[s]`. -/
def aggregate128 (s d : (⟨S850000, .i32⟩ : BufTy).Contents (Elt F)) (wt : (⟨S850000, .f32⟩ : BufTy).Contents (Elt F)) (h : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (fromEnd s))) (broadcastInDim S850000x128 ![0, 1] bcast_S850000x1_S850000x128_0_1 (broadcastInDim S850000x1 ![0] bcast_S850000_S850000x1_0 wt)))

/-- The same step on 32 features. -/
def aggregate32 (s d : (⟨S850000, .i32⟩ : BufTy).Contents (Elt F)) (wt : (⟨S850000, .f32⟩ : BufTy).Contents (Elt F)) (h : (⟨S50000x32, .f32⟩ : BufTy).Contents (Elt F)) : (⟨S50000x32, .f32⟩ : BufTy).Contents (Elt F) :=
  Host.scatterAdd scatter_S50000x32_S850000x1_S850000x32_1_0_0_1 (broadcastInDim S50000x32 ![] bcast_S_S50000x32 (constant S_ .f32 0x00000000#32)) (broadcastInDim S850000x1 ![0] bcast_S850000_S850000x1_0 d) (mulf (Host.gather gather_S50000x32_S850000x1_S850000x32_1_0_n_n_0_1_132 h (broadcastInDim S850000x1 ![0] bcast_S850000_S850000x1_0 (fromEnd s))) (broadcastInDim S850000x32 ![0, 1] bcast_S850000x1_S850000x32_0_1 (broadcastInDim S850000x1 ![0] bcast_S850000_S850000x1_0 wt)))

/-- The edge weights from given lists of sources `s` and targets `d`: with `deg` the ones added up at the targets (so a self
    loop makes a degree at least 1), `deg^(-1/2)` at the source times `deg^(-1/2)` at the target. -/
def weightsOf (s d : (⟨S850000, .i32⟩ : BufTy).Contents (Elt F)) : (⟨S850000, .f32⟩ : BufTy).Contents (Elt F) :=
  mulf (Host.gather gather_S50000_S850000x1_S850000_n_0_n_n_0_1_1 (Host.rsqrt (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32)))) (broadcastInDim S850000x1 ![0] bcast_S850000_S850000x1_0 (fromEnd s))) (Host.gather gather_S50000_S850000x1_S850000_n_0_n_n_0_1_1 (Host.rsqrt (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32)))) (broadcastInDim S850000x1 ![0] bcast_S850000_S850000x1_0 (fromEnd d)))

/-- The weight of every edge: `deg^(-1/2)` at its source times `deg^(-1/2)` at its target. -/
def edgeWeight (e : (⟨S2x800000, .i32⟩ : BufTy).Contents (Elt F)) : (⟨S850000, .f32⟩ : BufTy).Contents (Elt F) :=
  weightsOf (sources e) (targets e)

/-- One propagation step of the graph `e` on 128 features. -/
def propagate128 (e : (⟨S2x800000, .i32⟩ : BufTy).Contents (Elt F)) (h : (⟨S50000x128, .f32⟩ : BufTy).Contents (Elt F)) : (⟨S50000x128, .f32⟩ : BufTy).Contents (Elt F) :=
  aggregate128 (sources e) (targets e) (edgeWeight e) h

/-- One propagation step of the graph `e` on 32 features. -/
def propagate32 (e : (⟨S2x800000, .i32⟩ : BufTy).Contents (Elt F)) (h : (⟨S50000x32, .f32⟩ : BufTy).Contents (Elt F)) : (⟨S50000x32, .f32⟩ : BufTy).Contents (Elt F) :=
  aggregate32 (sources e) (targets e) (edgeWeight e) h

/-- Each row minus its own maximum. The maximum is taken from `-∞` and then once more against `-∞`, which changes
    nothing. -/
def centred (a : (⟨S50000x32, .f32⟩ : BufTy).Contents (Elt F)) : (⟨S50000x32, .f32⟩ : BufTy).Contents (Elt F) :=
  subf a (broadcastInDim S50000x32 ![0, 1] bcast_S50000x1_S50000x32_0_1 (broadcastInDim S50000x1 ![0] bcast_S50000_S50000x1_0 (maximumf (broadcastInDim S50000 ![] bcast_S_S50000 (constant S_ .f32 0xFF800000#32)) (Host.reduce FloatOps.maximumf a (constant S_ .f32 0xFF800000#32) reducesTo_S50000x32_S50000_d1 h_S_))))

/-- The row-wise log-softmax: `z - log (∑ exp z)` along each row, `z` the centred row. -/
def logSoftmaxRows (a : (⟨S50000x32, .f32⟩ : BufTy).Contents (Elt F)) : (⟨S50000x32, .f32⟩ : BufTy).Contents (Elt F) :=
  subf (centred a) (broadcastInDim S50000x32 ![0, 1] bcast_S50000x1_S50000x32_0_1 (Host.log (broadcastInDim S50000x1 ![0] bcast_S50000_S50000x1_0 (Host.reduceAdd (Host.exp (centred a)) (constant S_ .f32 0x00000000#32) reducesTo_S50000x32_S50000_d1 h_S_))))

/-- The first dense layer: `x · w`. -/
def dense1 (x : (⟨S50000x256, .f32⟩ : BufTy).Contents (Elt F)) (w : (⟨S256x128, .f32⟩ : BufTy).Contents (Elt F)) : (⟨S50000x128, .f32⟩ : BufTy).Contents (Elt F) :=
  Host.dotGeneral dot_S50000x256_S256x128_S50000x128_1_0_0_1_n_n none x w

/-- The second dense layer on the hidden activations: `max(a + b, 0) · w`, the bias `b` one row added to every row. -/
def dense2 (a : (⟨S50000x128, .f32⟩ : BufTy).Contents (Elt F)) (b : (⟨S1x128, .f32⟩ : BufTy).Contents (Elt F)) (w : (⟨S128x32, .f32⟩ : BufTy).Contents (Elt F)) : (⟨S50000x32, .f32⟩ : BufTy).Contents (Elt F) :=
  Host.dotGeneral dot_S50000x128_S128x32_S50000x32_1_0_0_1_n_n none (maximumf (addf a (broadcastInDim S50000x128 ![0, 1] bcast_S1x128_S50000x128_0_1 b)) (broadcastInDim S50000x128 ![] bcast_S_S50000x128 (constant S_ .f32 0x00000000#32))) w

/-- The output layer: the log-softmax of `a + b` along each row, the bias `b` one row added to every row. -/
def classify (a : (⟨S50000x32, .f32⟩ : BufTy).Contents (Elt F)) (b : (⟨S1x32, .f32⟩ : BufTy).Contents (Elt F)) : (⟨S50000x32, .f32⟩ : BufTy).Contents (Elt F) :=
  logSoftmaxRows (addf a (broadcastInDim S50000x32 ![0, 1] bcast_S1x32_S50000x32_0_1 b))

/-- The whole network, the two biases given as rows:
    `classify (propagate (dense2 (propagate (dense1 x w1)) b1 w2)) b2`. -/
def network (x : (⟨S50000x256, .f32⟩ : BufTy).Contents (Elt F)) (e : (⟨S2x800000, .i32⟩ : BufTy).Contents (Elt F)) (w1 : (⟨S256x128, .f32⟩ : BufTy).Contents (Elt F)) (b1 : (⟨S1x128, .f32⟩ : BufTy).Contents (Elt F)) (w2 : (⟨S128x32, .f32⟩ : BufTy).Contents (Elt F)) (b2 : (⟨S1x32, .f32⟩ : BufTy).Contents (Elt F)) : (⟨S50000x32, .f32⟩ : BufTy).Contents (Elt F) :=
  classify (propagate32 e (dense2 (propagate128 e (dense1 x w1)) b1 w2)) b2

end Cert.GraphConv

end
-- ==== Proof.KernelStages.lean ====
/-
  The kernel's host code between its three kernels, read back over arbitrary starting contents.

  Before the first kernel the host builds the lists of sources and targets (the edges, then the self loops) and the edge
  weights; between the kernels it aggregates the previous kernel's output along the edges and lays the next bias out as a
  row. Each stretch is a short straight line of host operations, so what it leaves in a buffer is the composition of the
  operations that lead to that buffer, applied to the starting contents `V` of the buffers they read; a buffer no
  operation of the stretch writes keeps its contents. The compositions are those of GraphConv.lean.
-/
import proofs.«134392_j14113262535098_1_alg».proof.Proof.Gen.KernelIdeal.Launch
import proofs.«134392_j14113262535098_1_alg».proof.Proof.GraphConv
import Idealize.ShloMosaic.Lib.StableHlo.Run

set_option maxRecDepth 16384

noncomputable section

namespace Cert.GraphConv.Stretches

open Cert.KernelIdeal Cert.KernelIdeal.Gen Idealize.ShloMosaic Idealize.ShloMosaic.StableHlo

variable {F : FTy → Type} [FloatOps F] (V : Valuation τ sig (Elt F))

/-! ## Before the first kernel: the node lists and the edge weights -/

theorem s0_sources : after (hostOps0 (F := F)) V (Proc.devRef .tc main_v5) = Cert.GraphConv.sources (F := F) (V (Proc.devRef .tc main_arg1)) := by
  dsimp only [hostOps0]; after_results; rfl

theorem s0_targets : after (hostOps0 (F := F)) V (Proc.devRef .tc main_v6) = Cert.GraphConv.targets (F := F) (V (Proc.devRef .tc main_arg1)) := by
  dsimp only [hostOps0]; after_results; rfl

set_option maxHeartbeats 8000000 in
theorem s0_weights : after (hostOps0 (F := F)) V (Proc.devRef .tc main_v26) = Cert.GraphConv.edgeWeight (F := F) (V (Proc.devRef .tc main_arg1)) := by
  after_results_simp <;> rfl

theorem s0_keep_main_arg0 : after (hostOps0 (F := F)) V (Proc.devRef .tc main_arg0) = V (Proc.devRef .tc main_arg0) := by
  dsimp only [hostOps0]; after_results
theorem s0_keep_main_arg2 : after (hostOps0 (F := F)) V (Proc.devRef .tc main_arg2) = V (Proc.devRef .tc main_arg2) := by
  dsimp only [hostOps0]; after_results
theorem s0_keep_main_arg3 : after (hostOps0 (F := F)) V (Proc.devRef .tc main_arg3) = V (Proc.devRef .tc main_arg3) := by
  dsimp only [hostOps0]; after_results
theorem s0_keep_main_arg4 : after (hostOps0 (F := F)) V (Proc.devRef .tc main_arg4) = V (Proc.devRef .tc main_arg4) := by
  dsimp only [hostOps0]; after_results
theorem s0_keep_main_arg5 : after (hostOps0 (F := F)) V (Proc.devRef .tc main_arg5) = V (Proc.devRef .tc main_arg5) := by
  dsimp only [hostOps0]; after_results

/-! ## Between the first and the second kernel: one aggregation on 128 features, the hidden bias as a row -/

set_option maxHeartbeats 8000000 in
theorem s1_aggregate : after (hostOps1 (F := F)) V (Proc.devRef .tc main_v40)
    = Cert.GraphConv.aggregate128 (F := F) (V (Proc.devRef .tc main_v5)) (V (Proc.devRef .tc main_v6)) (V (Proc.devRef .tc main_v26)) (V (Proc.devRef .tc main_v27)) := by
  after_results_simp <;> rfl

theorem s1_bias : after (hostOps1 (F := F)) V (Proc.devRef .tc main_v41) = shapeCast S1x128 (V (Proc.devRef .tc main_arg3)) shapeCasts_S128_S1x128 := by
  dsimp only [hostOps1]; after_results; rfl

theorem s1_keep_main_arg4 : after (hostOps1 (F := F)) V (Proc.devRef .tc main_arg4) = V (Proc.devRef .tc main_arg4) := by
  dsimp only [hostOps1]; after_results
theorem s1_keep_main_arg5 : after (hostOps1 (F := F)) V (Proc.devRef .tc main_arg5) = V (Proc.devRef .tc main_arg5) := by
  dsimp only [hostOps1]; after_results
theorem s1_keep_main_v5 : after (hostOps1 (F := F)) V (Proc.devRef .tc main_v5) = V (Proc.devRef .tc main_v5) := by
  dsimp only [hostOps1]; after_results
theorem s1_keep_main_v6 : after (hostOps1 (F := F)) V (Proc.devRef .tc main_v6) = V (Proc.devRef .tc main_v6) := by
  dsimp only [hostOps1]; after_results
theorem s1_keep_main_v26 : after (hostOps1 (F := F)) V (Proc.devRef .tc main_v26) = V (Proc.devRef .tc main_v26) := by
  dsimp only [hostOps1]; after_results

/-! ## Between the second and the third kernel: one aggregation on 32 features, the output bias as a row -/

set_option maxHeartbeats 8000000 in
theorem s2_aggregate : after (hostOps2 (F := F)) V (Proc.devRef .tc main_v55)
    = Cert.GraphConv.aggregate32 (F := F) (V (Proc.devRef .tc main_v5)) (V (Proc.devRef .tc main_v6)) (V (Proc.devRef .tc main_v26)) (V (Proc.devRef .tc main_v42)) := by
  after_results_simp <;> rfl

theorem s2_bias : after (hostOps2 (F := F)) V (Proc.devRef .tc main_v56) = shapeCast S1x32 (V (Proc.devRef .tc main_arg5)) shapeCasts_S32_S1x32 := by
  dsimp only [hostOps2]; after_results; rfl

end Cert.GraphConv.Stretches

end
-- ==== Proof.DotRead.lean ====
/-
  The four matrix products of the network read as plain sums. Each is a product `[M, K] · [K, N]` contracting the left
  factor's columns with the right factor's rows, so entry `(r, c)` of the result is `∑ k < K, left (r, k) · right (k, c)`.
  The contraction indices of a product are functions on its one contracted axis; they are put in bijection with
  `k < K`, and the two factors' indices at `(r, c)` and `k` are computed from the product's dimension numbers.
  Two of the products are the kernel's per-block ones (5000 rows at a time), two the reference's whole ones (50000 rows).
-/
import proofs.«134392_j14113262535098_1_alg».proof.Proof.Gen.KernelIdeal
import proofs.«134392_j14113262535098_1_alg».proof.Proof.Gen.ReferenceIdeal
import Idealize.ShloMosaic.Lib.ValueIdx
import Idealize.ShloMosaic.PureOps.Ideal.Laws

noncomputable section

namespace Cert.GraphConv.DotRead

open Idealize.ShloMosaic

/-! ## The first layer's product on a block of 5000 rows -/

theorem blk1_lhs0 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.lhsIdx i q 0).val = (i 0).val := by
  unfold DotDims.lhsIdx
  rw [dif_neg (show ¬(0 : Fin Cert.KernelIdeal.S5000x256.rank) ∈ Cert.KernelIdeal.dot_S5000x256_S256x128_S5000x128_1_0_0_1_n_n.lhsBatch by decide), dif_pos (show (0 : Fin Cert.KernelIdeal.S5000x256.rank) ∈ Cert.KernelIdeal.dot_S5000x256_S256x128_S5000x128_1_0_0_1_n_n.lhsNonContracting by decide)]
  rfl
theorem blk1_lhs1 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.lhsIdx i q 1).val = (q ⟨0, by decide⟩).val :=
  Cert.KernelIdeal.dot_S5000x256_S256x128_S5000x128_1_0_0_1_n_n.lhsIdx_val_of_single rfl i q
theorem blk1_rhs0 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.rhsIdx i q 0).val = (q ⟨0, by decide⟩).val :=
  Cert.KernelIdeal.dot_S5000x256_S256x128_S5000x128_1_0_0_1_n_n.rhsIdx_val_of_single rfl i q
theorem blk1_rhs1 (i : Cert.KernelIdeal.S5000x128.Idx) (q : Cert.KernelIdeal.dot_S5000x256_S256x128_S5000x128_1_0_0_1_n_n.contr.Idx) : (Cert.KernelIdeal.dot_S5000x256_S256x128_S5000x128_1_0_0_1_n_n.rhsIdx i q 1).val = (i 1).val := by
  unfold DotDims.rhsIdx
  rw [dif_neg (show ¬(1 : Fin Cert.KernelIdeal.S256x128.rank) ∈ Cert.KernelIdeal.dot_S5000x256_S256x128_S5000x128_1_0_0_1_n_n.rhsBatch by decide), dif_pos (show (1 : Fin Cert.KernelIdeal.S256x128.rank) ∈ Cert.KernelIdeal.dot_S5000x256_S256x128_S5000x128_1_0_0_1_n_n.rhsNonContracting by decide)]
  rfl

/-- Entry `(i 0, k)` of the left factor: the row of the result's entry, the `k`-th contracted coordinate. -/
abbrev blk1_l (i : Cert.KernelIdeal.S5000x128.Idx) (k : Fin 256) : Cert.KernelIdeal.S5000x256.Idx := fun a => match a with
  | ⟨0, _⟩ => ⟨(i 0).val, (i 0).isLt⟩
  | ⟨1, _⟩ => ⟨k.val, k.isLt⟩
/-- Entry `(k, i 1)` of the right factor: the `k`-th contracted coordinate, the column of the result's entry. -/
abbrev blk1_r (i : Cert.KernelIdeal.S5000x128.Idx) (k : Fin 256) : Cert.KernelIdeal.S256x128.Idx := fun a => match a with
  | ⟨0, _⟩ => ⟨k.val, k.isLt⟩
  | ⟨1, _⟩ => ⟨(i 1).val, (i 1).isLt⟩

/-- The sum over the product's contraction indices is the sum over `k < 256` of row entry times column entry. -/
theorem blk1_sum (f : Cert.KernelIdeal.S5000x256.Idx → EReal) (g : Cert.KernelIdeal.S256x128.Idx → EReal) (i : Cert.KernelIdeal.S5000x128.Idx) :
    ∑ q : Cert.KernelIdeal.dot_S5000x256_S256x128_S5000x128_1_0_0_1_n_n.contr.Idx, f (Cert.KernelIdeal.dot_S5000x256_S256x128_S5000x128_1_0_0_1_n_n.lhsIdx i q) * g (Cert.KernelIdeal.dot_S5000x256_S256x128_S5000x128_1_0_0_1_n_n.rhsIdx i q) = ∑ k : Fin 256, f (blk1_l i k) * g (blk1_r i k) := by
  rw [← Equiv.sum_comp (ValueIdx.contrEquiv1 Cert.KernelIdeal.dot_S5000x256_S256x128_S5000x128_1_0_0_1_n_n 256 rfl rfl).symm]
  refine Finset.sum_congr rfl fun k _ => ?_
  have hk := ValueIdx.contrEquiv1_symm_val Cert.KernelIdeal.dot_S5000x256_S256x128_S5000x128_1_0_0_1_n_n 256 rfl rfl k
  have el : Cert.KernelIdeal.dot_S5000x256_S256x128_S5000x128_1_0_0_1_n_n.lhsIdx i ((ValueIdx.contrEquiv1 Cert.KernelIdeal.dot_S5000x256_S256x128_S5000x128_1_0_0_1_n_n 256 rfl rfl).symm k) = blk1_l i k := funext fun a => Fin.ext (by
    match a with
    | ⟨0, _⟩ => exact blk1_lhs0 _ _
    | ⟨1, _⟩ => exact (blk1_lhs1 _ _).trans hk)
  have er : Cert.KernelIdeal.dot_S5000x256_S256x128_S5000x128_1_0_0_1_n_n.rhsIdx i ((ValueIdx.contrEquiv1 Cert.KernelIdeal.dot_S5000x256_S256x128_S5000x128_1_0_0_1_n_n 256 rfl rfl).symm k) = blk1_r i k := funext fun a => Fin.ext (by
    match a with
    | ⟨0, _⟩ => exact (blk1_rhs0 _ _).trans hk
    | ⟨1, _⟩ => exact blk1_rhs1 _ _)
  rw [el, er]

/-! ## The second layer's product on a block of 5000 rows -/

theorem blk2_lhs0 (i : Cert.KernelIdeal.S5000x32.Idx) (q : Cert.KernelIdeal.dot_S5000x128_S128x32_S5000x32_1_0_0_1_n_n.contr.Idx) : (Cert.KernelIdeal.dot_S5000x128_S128x32_S5000x32_1_0_0_1_n_n.lhsIdx i q 0).val = (i 0).val := by
  unfold DotDims.lhsIdx
  rw [dif_neg (show ¬(0 : Fin Cert.KernelIdeal.S5000x128.rank) ∈ Cert.KernelIdeal.dot_S5000x128_S128x32_S5000x32_1_0_0_1_n_n.lhsBatch by decide), dif_pos (show (0 : Fin Cert.KernelIdeal.S5000x128.rank) ∈ Cert.KernelIdeal.dot_S5000x128_S128x32_S5000x32_1_0_0_1_n_n.lhsNonContracting by decide)]
  rfl
theorem blk2_lhs1 (i : Cert.KernelIdeal.S5000x32.Idx) (q : Cert.KernelIdeal.dot_S5000x128_S128x32_S5000x32_1_0_0_1_n_n.contr.Idx) : (Cert.KernelIdeal.dot_S5000x128_S128x32_S5000x32_1_0_0_1_n_n.lhsIdx i q 1).val = (q ⟨0, by decide⟩).val :=
  Cert.KernelIdeal.dot_S5000x128_S128x32_S5000x32_1_0_0_1_n_n.lhsIdx_val_of_single rfl i q
theorem blk2_rhs0 (i : Cert.KernelIdeal.S5000x32.Idx) (q : Cert.KernelIdeal.dot_S5000x128_S128x32_S5000x32_1_0_0_1_n_n.contr.Idx) : (Cert.KernelIdeal.dot_S5000x128_S128x32_S5000x32_1_0_0_1_n_n.rhsIdx i q 0).val = (q ⟨0, by decide⟩).val :=
  Cert.KernelIdeal.dot_S5000x128_S128x32_S5000x32_1_0_0_1_n_n.rhsIdx_val_of_single rfl i q
theorem blk2_rhs1 (i : Cert.KernelIdeal.S5000x32.Idx) (q : Cert.KernelIdeal.dot_S5000x128_S128x32_S5000x32_1_0_0_1_n_n.contr.Idx) : (Cert.KernelIdeal.dot_S5000x128_S128x32_S5000x32_1_0_0_1_n_n.rhsIdx i q 1).val = (i 1).val := by
  unfold DotDims.rhsIdx
  rw [dif_neg (show ¬(1 : Fin Cert.KernelIdeal.S128x32.rank) ∈ Cert.KernelIdeal.dot_S5000x128_S128x32_S5000x32_1_0_0_1_n_n.rhsBatch by decide), dif_pos (show (1 : Fin Cert.KernelIdeal.S128x32.rank) ∈ Cert.KernelIdeal.dot_S5000x128_S128x32_S5000x32_1_0_0_1_n_n.rhsNonContracting by decide)]
  rfl

/-- Entry `(i 0, k)` of the left factor: the row of the result's entry, the `k`-th contracted coordinate. -/
abbrev blk2_l (i : Cert.KernelIdeal.S5000x32.Idx) (k : Fin 128) : Cert.KernelIdeal.S5000x128.Idx := fun a => match a with
  | ⟨0, _⟩ => ⟨(i 0).val, (i 0).isLt⟩
  | ⟨1, _⟩ => ⟨k.val, k.isLt⟩
/-- Entry `(k, i 1)` of the right factor: the `k`-th contracted coordinate, the column of the result's entry. -/
abbrev blk2_r (i : Cert.KernelIdeal.S5000x32.Idx) (k : Fin 128) : Cert.KernelIdeal.S128x32.Idx := fun a => match a with
  | ⟨0, _⟩ => ⟨k.val, k.isLt⟩
  | ⟨1, _⟩ => ⟨(i 1).val, (i 1).isLt⟩

/-- The sum over the product's contraction indices is the sum over `k < 128` of row entry times column entry. -/
theorem blk2_sum (f : Cert.KernelIdeal.S5000x128.Idx → EReal) (g : Cert.KernelIdeal.S128x32.Idx → EReal) (i : Cert.KernelIdeal.S5000x32.Idx) :
    ∑ q : Cert.KernelIdeal.dot_S5000x128_S128x32_S5000x32_1_0_0_1_n_n.contr.Idx, f (Cert.KernelIdeal.dot_S5000x128_S128x32_S5000x32_1_0_0_1_n_n.lhsIdx i q) * g (Cert.KernelIdeal.dot_S5000x128_S128x32_S5000x32_1_0_0_1_n_n.rhsIdx i q) = ∑ k : Fin 128, f (blk2_l i k) * g (blk2_r i k) := by
  rw [← Equiv.sum_comp (ValueIdx.contrEquiv1 Cert.KernelIdeal.dot_S5000x128_S128x32_S5000x32_1_0_0_1_n_n 128 rfl rfl).symm]
  refine Finset.sum_congr rfl fun k _ => ?_
  have hk := ValueIdx.contrEquiv1_symm_val Cert.KernelIdeal.dot_S5000x128_S128x32_S5000x32_1_0_0_1_n_n 128 rfl rfl k
  have el : Cert.KernelIdeal.dot_S5000x128_S128x32_S5000x32_1_0_0_1_n_n.lhsIdx i ((ValueIdx.contrEquiv1 Cert.KernelIdeal.dot_S5000x128_S128x32_S5000x32_1_0_0_1_n_n 128 rfl rfl).symm k) = blk2_l i k := funext fun a => Fin.ext (by
    match a with
    | ⟨0, _⟩ => exact blk2_lhs0 _ _
    | ⟨1, _⟩ => exact (blk2_lhs1 _ _).trans hk)
  have er : Cert.KernelIdeal.dot_S5000x128_S128x32_S5000x32_1_0_0_1_n_n.rhsIdx i ((ValueIdx.contrEquiv1 Cert.KernelIdeal.dot_S5000x128_S128x32_S5000x32_1_0_0_1_n_n 128 rfl rfl).symm k) = blk2_r i k := funext fun a => Fin.ext (by
    match a with
    | ⟨0, _⟩ => exact (blk2_rhs0 _ _).trans hk
    | ⟨1, _⟩ => exact blk2_rhs1 _ _)
  rw [el, er]

/-! ## The first layer's product on all 50000 rows -/

theorem all1_lhs0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem all1_lhs1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem all1_rhs0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem all1_rhs1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- Entry `(i 0, k)` of the left factor: the row of the result's entry, the `k`-th contracted coordinate. -/
abbrev all1_l (i : Cert.ReferenceIdeal.S50000x128.Idx) (k : Fin 256) : Cert.ReferenceIdeal.S50000x256.Idx := fun a => match a with
  | ⟨0, _⟩ => ⟨(i 0).val, (i 0).isLt⟩
  | ⟨1, _⟩ => ⟨k.val, k.isLt⟩
/-- Entry `(k, i 1)` of the right factor: the `k`-th contracted coordinate, the column of the result's entry. -/
abbrev all1_r (i : Cert.ReferenceIdeal.S50000x128.Idx) (k : Fin 256) : Cert.ReferenceIdeal.S256x128.Idx := fun a => match a with
  | ⟨0, _⟩ => ⟨k.val, k.isLt⟩
  | ⟨1, _⟩ => ⟨(i 1).val, (i 1).isLt⟩

/-- The sum over the product's contraction indices is the sum over `k < 256` of row entry times column entry. -/
theorem all1_sum (f : Cert.ReferenceIdeal.S50000x256.Idx → EReal) (g : Cert.ReferenceIdeal.S256x128.Idx → EReal) (i : Cert.ReferenceIdeal.S50000x128.Idx) :
    ∑ q : Cert.ReferenceIdeal.dot_S50000x256_S256x128_S50000x128_1_0_0_1_n_n.contr.Idx, f (Cert.ReferenceIdeal.dot_S50000x256_S256x128_S50000x128_1_0_0_1_n_n.lhsIdx i q) * g (Cert.ReferenceIdeal.dot_S50000x256_S256x128_S50000x128_1_0_0_1_n_n.rhsIdx i q) = ∑ k : Fin 256, f (all1_l i k) * g (all1_r i k) := by
  rw [← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = all1_l i k := funext fun a => Fin.ext (by
    match a with
    | ⟨0, _⟩ => exact all1_lhs0 _ _
    | ⟨1, _⟩ => exact (all1_lhs1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = all1_r i k := funext fun a => Fin.ext (by
    match a with
    | ⟨0, _⟩ => exact (all1_rhs0 _ _).trans hk
    | ⟨1, _⟩ => exact all1_rhs1 _ _)
  rw [el, er]

/-! ## The second layer's product on all 50000 rows -/

theorem all2_lhs0 (i : Cert.ReferenceIdeal.S50000x32.Idx) (q : Cert.ReferenceIdeal.dot_S50000x128_S128x32_S50000x32_1_0_0_1_n_n.contr.Idx) : (Cert.ReferenceIdeal.dot_S50000x128_S128x32_S50000x32_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x32_S50000x32_1_0_0_1_n_n.lhsBatch by decide), dif_pos (show (0 : Fin Cert.ReferenceIdeal.S50000x128.rank) ∈ Cert.ReferenceIdeal.dot_S50000x128_S128x32_S50000x32_1_0_0_1_n_n.lhsNonContracting by decide)]
  rfl
theorem all2_lhs1 (i : Cert.ReferenceIdeal.S50000x32.Idx) (q : Cert.ReferenceIdeal.dot_S50000x128_S128x32_S50000x32_1_0_0_1_n_n.contr.Idx) : (Cert.ReferenceIdeal.dot_S50000x128_S128x32_S50000x32_1_0_0_1_n_n.lhsIdx i q 1).val = (q ⟨0, by decide⟩).val :=
  Cert.ReferenceIdeal.dot_S50000x128_S128x32_S50000x32_1_0_0_1_n_n.lhsIdx_val_of_single rfl i q
theorem all2_rhs0 (i : Cert.ReferenceIdeal.S50000x32.Idx) (q : Cert.ReferenceIdeal.dot_S50000x128_S128x32_S50000x32_1_0_0_1_n_n.contr.Idx) : (Cert.ReferenceIdeal.dot_S50000x128_S128x32_S50000x32_1_0_0_1_n_n.rhsIdx i q 0).val = (q ⟨0, by decide⟩).val :=
  Cert.ReferenceIdeal.dot_S50000x128_S128x32_S50000x32_1_0_0_1_n_n.rhsIdx_val_of_single rfl i q
theorem all2_rhs1 (i : Cert.ReferenceIdeal.S50000x32.Idx) (q : Cert.ReferenceIdeal.dot_S50000x128_S128x32_S50000x32_1_0_0_1_n_n.contr.Idx) : (Cert.ReferenceIdeal.dot_S50000x128_S128x32_S50000x32_1_0_0_1_n_n.rhsIdx i q 1).val = (i 1).val := by
  unfold DotDims.rhsIdx
  rw [dif_neg (show ¬(1 : Fin Cert.ReferenceIdeal.S128x32.rank) ∈ Cert.ReferenceIdeal.dot_S50000x128_S128x32_S50000x32_1_0_0_1_n_n.rhsBatch by decide), dif_pos (show (1 : Fin Cert.ReferenceIdeal.S128x32.rank) ∈ Cert.ReferenceIdeal.dot_S50000x128_S128x32_S50000x32_1_0_0_1_n_n.rhsNonContracting by decide)]
  rfl

/-- Entry `(i 0, k)` of the left factor: the row of the result's entry, the `k`-th contracted coordinate. -/
abbrev all2_l (i : Cert.ReferenceIdeal.S50000x32.Idx) (k : Fin 128) : Cert.ReferenceIdeal.S50000x128.Idx := fun a => match a with
  | ⟨0, _⟩ => ⟨(i 0).val, (i 0).isLt⟩
  | ⟨1, _⟩ => ⟨k.val, k.isLt⟩
/-- Entry `(k, i 1)` of the right factor: the `k`-th contracted coordinate, the column of the result's entry. -/
abbrev all2_r (i : Cert.ReferenceIdeal.S50000x32.Idx) (k : Fin 128) : Cert.ReferenceIdeal.S128x32.Idx := fun a => match a with
  | ⟨0, _⟩ => ⟨k.val, k.isLt⟩
  | ⟨1, _⟩ => ⟨(i 1).val, (i 1).isLt⟩

/-- The sum over the product's contraction indices is the sum over `k < 128` of row entry times column entry. -/
theorem all2_sum (f : Cert.ReferenceIdeal.S50000x128.Idx → EReal) (g : Cert.ReferenceIdeal.S128x32.Idx → EReal) (i : Cert.ReferenceIdeal.S50000x32.Idx) :
    ∑ q : Cert.ReferenceIdeal.dot_S50000x128_S128x32_S50000x32_1_0_0_1_n_n.contr.Idx, f (Cert.ReferenceIdeal.dot_S50000x128_S128x32_S50000x32_1_0_0_1_n_n.lhsIdx i q) * g (Cert.ReferenceIdeal.dot_S50000x128_S128x32_S50000x32_1_0_0_1_n_n.rhsIdx i q) = ∑ k : Fin 128, f (all2_l i k) * g (all2_r i k) := by
  rw [← Equiv.sum_comp (ValueIdx.contrEquiv1 Cert.ReferenceIdeal.dot_S50000x128_S128x32_S50000x32_1_0_0_1_n_n 128 rfl rfl).symm]
  refine Finset.sum_congr rfl fun k _ => ?_
  have hk := ValueIdx.contrEquiv1_symm_val Cert.ReferenceIdeal.dot_S50000x128_S128x32_S50000x32_1_0_0_1_n_n 128 rfl rfl k
  have el : Cert.ReferenceIdeal.dot_S50000x128_S128x32_S50000x32_1_0_0_1_n_n.lhsIdx i ((ValueIdx.contrEquiv1 Cert.ReferenceIdeal.dot_S50000x128_S128x32_S50000x32_1_0_0_1_n_n 128 rfl rfl).symm k) = all2_l i k := funext fun a => Fin.ext (by
    match a with
    | ⟨0, _⟩ => exact all2_lhs0 _ _
    | ⟨1, _⟩ => exact (all2_lhs1 _ _).trans hk)
  have er : Cert.ReferenceIdeal.dot_S50000x128_S128x32_S50000x32_1_0_0_1_n_n.rhsIdx i ((ValueIdx.contrEquiv1 Cert.ReferenceIdeal.dot_S50000x128_S128x32_S50000x32_1_0_0_1_n_n 128 rfl rfl).symm k) = all2_r i k := funext fun a => Fin.ext (by
    match a with
    | ⟨0, _⟩ => exact (all2_rhs0 _ _).trans hk
    | ⟨1, _⟩ => exact all2_rhs1 _ _)
  rw [el, er]

end Cert.GraphConv.DotRead

end
-- ==== Proof.Layer1.lean ====
/-
  The first dense layer, computed 5000 rows at a time, is `x · w` on all 50000 rows.

  Grid point `t` of the first kernel loads rows `5000 t … 5000 t + 4999` of `x` and all of `w`, multiplies them on the
  matrix unit (the narrowing of both factors to bf16 is the identity on the extended reals, the accumulator starts at zero)
  and writes the product to the same rows of the output. Entry `(r, c)` of a product is `∑ k < 256, left (r, k) · right (k, c)`
  whether the left factor has 5000 rows or 50000, so what point `t` writes is block `t` of `x · w`; the ten blocks tile the
  50000 rows, so the output array ends holding `x · w`.
-/
import proofs.«134392_j14113262535098_1_alg».proof.Proof.Gen.KernelIdeal.Frame
import proofs.«134392_j14113262535098_1_alg».proof.Proof.GraphConv
import proofs.«134392_j14113262535098_1_alg».proof.Proof.DotRead
import Idealize.ShloMosaic.Lib.Pipeline.Value

set_option maxRecDepth 16384

noncomputable section

namespace Cert.GraphConv.Layer1

open Cert.KernelIdeal Cert.KernelIdeal.Gen Idealize.ShloMosaic Idealize.ShloMosaic.TcCoe Idealize.SL.Sem
open Idealize.ShloMosaic.Pipeline (Dat)
open Cert.GraphConv.DotRead

/-- Entry `(r, c)` of the reference's first product: `∑ k < 256, x (r, k) · w (k, c)`. -/
theorem dense1_apply (x : Cert.ReferenceIdeal.S50000x256.Idx → EReal) (w : Cert.ReferenceIdeal.S256x128.Idx → EReal)
    (i : Cert.ReferenceIdeal.S50000x128.Idx) :
    Cert.GraphConv.dense1 (F := Ideal) x w i = ∑ k : Fin 256, x (all1_l i k) * w (all1_r i k) := by
  unfold Cert.GraphConv.dense1
  simp only [Host.dotGeneral]
  rw [Ideal.dotGeneral_apply]
  exact all1_sum x w i

/-- Entry `(r, c)` of what the kernel computes from a block of 5000 rows: `∑ k < 256, block (r, k) · w (k, c)`. -/
theorem block_entry (xb : Vec Ideal S5000x256 .f32) (wb : Vec Ideal S256x128 .f32) (j : S5000x128.Idx) :
    k0_pay1 xb wb j = ∑ k : Fin 256, xb (blk1_l j k) * wb (blk1_r j k) := by
  unfold k0_pay1
  refine (Ideal.matmul_constant_zero_apply dot_S5000x256_S256x128_S5000x128_1_0_0_1_n_n none _ _ j).trans ?_
  exact blk1_sum xb wb j

theorem hz : (![0, 0] : Fin 2 → Nat) = fun _ => 0 := funext fun a => by fin_cases a <;> rfl

/-- Where each window's block sits at point `t`: the rows of `x` and of the output move with `t`, `w` is taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `x · w`, `x` and `w` the arrays as the region finds them. -/
theorem flushed_eq (c : Dev nD) (t : Fin cfg0.N) :
    (dat0 V c).flushed 2 t = ((cfg0.win 2).blk t).view.read (Elt Ideal) (Cert.GraphConv.dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  show k0_pay1 (iblk0 V c 0 t) (iblk0 V c 1 t) j = Cert.GraphConv.dense1 (F := Ideal) (V c main_arg0) (V c main_arg2) (((cfg0.win 2).blk t).view.emb j)
  refine (block_entry (iblk0 V c 0 t) (iblk0 V c 1 t) j).trans ?_
  refine Eq.trans ?_ (dense1_apply (V c main_arg0) (V c main_arg2) (((cfg0.win 2).blk t).view.emb j)).symm
  refine Finset.sum_congr rfl fun k _ => ?_
  have h0 : ((cfg0.win 0).blk t).view.emb (blk1_l j k) = all1_l (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (blk1_r j k) = all1_r (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  exact congrArg₂ (fun u v : EReal => u * v) (congrArg (V c main_arg0) h0) (congrArg (V c main_arg2) h1)

/-- An index of the output is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row `r` of the output is written by point `r / 5000`: the ten blocks tile the 50000 rows. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨e0, e1, e2, e3, e4, e5⟩ := idx_facts ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 128 ≤ (i 1).val ∧ (i 1).val < win0_2.index ⟨(i 0).val / 5000, hlt⟩ (1 : Fin 2) * 128 + 128; omega

/-- The first kernel's output array after the region: `x · w` of the arrays the region was entered with. -/
theorem final (c : Dev nD) :
    (dat0 V c).arrAt 2 cfg0.N = Cert.GraphConv.dense1 (F := Ideal) (V c main_arg0) (V c main_arg2) :=
  (dat0 V c).arrAt_eq_of_cover 2 _ (fun t _ => flushed_eq V c t) cover

end Cert.GraphConv.Layer1

end
-- ==== Proof.Layer2.lean ====
/-
  The second dense layer, computed 5000 rows at a time, is `max(a + b, 0) · w` on all 50000 rows.

  Grid point `t` of the second kernel loads rows `5000 t … 5000 t + 4999` of the aggregated features `a`, the bias row `b`
  and all of `w`; it adds `b` to every row, takes the maximum with zero, and multiplies by `w` on the matrix unit (bf16
  narrowing is the identity on the extended reals, the accumulator starts at zero). Entry `(r, c)` of the result is
  `∑ k < 128, max (a (r, k) + b (0, k)) 0 · w (k, c)` on a block as on the whole array, and the ten blocks tile the 50000 rows.
-/
import proofs.«134392_j14113262535098_1_alg».proof.Proof.Gen.KernelIdeal.Frame
import proofs.«134392_j14113262535098_1_alg».proof.Proof.GraphConv
import proofs.«134392_j14113262535098_1_alg».proof.Proof.DotRead
import Idealize.ShloMosaic.Lib.Pipeline.Value

set_option maxRecDepth 16384

noncomputable section

namespace Cert.GraphConv.Layer2

open Cert.KernelIdeal Cert.KernelIdeal.Gen Idealize.ShloMosaic Idealize.ShloMosaic.TcCoe Idealize.SL.Sem
open Idealize.ShloMosaic.Pipeline (Dat)
open Cert.GraphConv.DotRead

/-- Entry `(0, k)` of a one-row matrix. -/
abbrev rowAt (k : Fin 128) : S1x128.Idx := fun a => match a with
  | ⟨0, _⟩ => ⟨0, Nat.one_pos⟩
  | ⟨1, _⟩ => ⟨k.val, k.isLt⟩

/-- Entry `(r, c)` of the reference's second product: `∑ k < 128, max (a (r, k) + b (0, k)) 0 · w (k, c)`. -/
theorem dense2_apply (a : Cert.ReferenceIdeal.S50000x128.Idx → EReal) (b : Cert.ReferenceIdeal.S1x128.Idx → EReal) (w : Cert.ReferenceIdeal.S128x32.Idx → EReal)
    (i : Cert.ReferenceIdeal.S50000x32.Idx) :
    Cert.GraphConv.dense2 (F := Ideal) a b w i = ∑ k : Fin 128, max (a (all2_l i k) + b (rowAt k)) 0 * w (all2_r i k) := by
  unfold Cert.GraphConv.dense2
  simp only [Host.dotGeneral]
  rw [Ideal.dotGeneral_apply]
  refine (all2_sum _ w i).trans ?_
  refine Finset.sum_congr rfl fun k _ => ?_
  refine congrArg (· * w (all2_r i k)) ?_
  show max (a (all2_l i k) + broadcastInDim _ _ _ b (all2_l i k)) (broadcastInDim _ _ _ (constant (F := Ideal) _ .f32 0x00000000#32) (all2_l i k)) = _
  rw [broadcastInDim_apply _ _ b (all2_l i k) (rowAt k) (fun a => match a with
        | ⟨0, _⟩ => by show 0 = if (1 : Nat) = 1 then 0 else (i 0).val; rw [if_pos rfl]
        | ⟨1, _⟩ => by show k.val = if (128 : Nat) = 1 then 0 else k.val; rw [if_neg (by decide)]),
      broadcastInDim_apply _ _ (constant (F := Ideal) _ .f32 0x00000000#32) (all2_l i k) (fun a => a.elim0) (fun a => a.elim0)]
  show max _ (Ideal.ofBits .f32 0x00000000#32) = _
  rw [Ideal.ofBits_zero_f32]

/-- Entry `(r, c)` of what the kernel computes from a block of 5000 rows, the bias row and the weights. -/
theorem block_entry (ab : Vec Ideal S5000x128 .f32) (bb : Vec Ideal S1x128 .f32) (wb : Vec Ideal S128x32 .f32) (j : S5000x32.Idx) :
    k1_pay1 ab bb wb j = ∑ k : Fin 128, max (ab (blk2_l j k) + bb (rowAt k)) 0 * wb (blk2_r j k) := by
  unfold k1_pay1
  refine (Ideal.matmul_constant_zero_apply dot_S5000x128_S128x32_S5000x32_1_0_0_1_n_n none _ _ j).trans ?_
  refine (blk2_sum _ wb j).trans ?_
  refine Finset.sum_congr rfl fun k _ => ?_
  refine congrArg (· * wb (blk2_r j k)) ?_
  show max (shapeCast S5000x128 ab shapeCasts_S5000x128_S5000x128 (blk2_l j k)
        + broadcastTo S5000x128 (shapeCast S1x128 bb shapeCasts_S1x128_S1x128) broadcasts_S1x128_S5000x128 (blk2_l j k))
      (Ideal.ofBits .f32 0x00000000#32) = _
  rw [shapeCast_self, shapeCast_self,
    broadcastTo_apply bb broadcasts_S1x128_S5000x128 (blk2_l j k) (rowAt k) (fun a => match a with
        | ⟨0, _⟩ => by show 0 = if (1 : Nat) = 1 then 0 else _; rw [if_pos rfl]
        | ⟨1, _⟩ => by show k.val = if (128 : Nat) = 1 then 0 else k.val; rw [if_neg (by decide)]),
    Ideal.ofBits_zero_f32]

theorem hz : (![0, 0] : Fin 2 → Nat) = fun _ => 0 := funext fun a => by fin_cases a <;> rfl

/-- Where each window's block sits at point `t`: the rows of `a` and of the output move with `t`; the bias row and `w`
    are taken whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `max(a + b, 0) · w`, the arrays as the region finds them. -/
theorem flushed_eq (c : Dev nD) (t : Fin cfg1.N) :
    (dat1 V c).flushed 3 t = ((cfg1.win 3).blk t).view.read (Elt Ideal)
      (Cert.GraphConv.dense2 (F := Ideal) (V c main_v40) (V c main_v41) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x32) hz]
  obtain ⟨e0, e1, e2, e3, e4, e5, e6, e7⟩ := idx_facts t
  funext j
  show k1_pay1 (iblk1 V c 0 t) (iblk1 V c 1 t) (iblk1 V c 2 t) j
    = Cert.GraphConv.dense2 (F := Ideal) (V c main_v40) (V c main_v41) (V c main_arg4) (((cfg1.win 3).blk t).view.emb j)
  refine (block_entry (iblk1 V c 0 t) (iblk1 V c 1 t) (iblk1 V c 2 t) j).trans ?_
  refine Eq.trans ?_ (dense2_apply (V c main_v40) (V c main_v41) (V c main_arg4) (((cfg1.win 3).blk t).view.emb j)).symm
  refine Finset.sum_congr rfl fun k _ => ?_
  have h0 : ((cfg1.win 0).blk t).view.emb (blk2_l j k) = all2_l (((cfg1.win 3).blk t).view.emb j) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (rowAt k) = rowAt k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (blk2_r j k) = all2_r (((cfg1.win 3).blk t).view.emb j) k := by
    funext a; apply Fin.ext
    match a with
    | ⟨0, _⟩ => show win1_2.index t (0 : Fin 2) * 128 + 1 * k.val = k.val; omega
    | ⟨1, _⟩ => show win1_2.index t (1 : Fin 2) * 32 + 1 * (j 1).val = win1_3.index t (1 : Fin 2) * 32 + 1 * (j 1).val; omega
  exact congrArg₂ (fun u v : EReal => u * v)
    (congrArg₂ (fun u v : EReal => max (u + v) 0) (congrArg (V c main_v40) h0) (congrArg (V c main_v41) h1))
    (congrArg (V c main_arg4) h2)

/-- An index of the output is in point `t`'s block iff each coordinate is in the block's range on its axis. -/
theorem mem_blk (t : Fin cfg1.N) (i : S50000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v42).slice (win1_3.rect t)).set ↔ _
  rw [View.set_slice_whole, Rect.mem_set_unit]
  exact Iff.rfl

/-- Row `r` of the output is written by point `r / 5000`: the ten blocks tile the 50000 rows. -/
theorem cover (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  have hN : grid1.N = 10 := N_1
  have hlt : (i 0).val / 5000 < grid1.N := by rw [hN]; omega
  obtain ⟨e0, e1, e2, e3, e4, e5, e6, e7⟩ := idx_facts ⟨(i 0).val / 5000, hlt⟩
  have e6' : win1_3.index ⟨(i 0).val / 5000, hlt⟩ (0 : Fin 2) = (i 0).val / 5000 := e6
  refine ⟨⟨(i 0).val / 5000, hlt⟩, flush1_3 _, ?_⟩
  rw [mem_blk]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 32 ≤ (i 1).val ∧ (i 1).val < win1_3.index ⟨(i 0).val / 5000, hlt⟩ (1 : Fin 2) * 32 + 32; omega

/-- The second kernel's output array after the region: `max(a + b, 0) · w` of the arrays the region was entered with. -/
theorem final (c : Dev nD) :
    (dat1 V c).arrAt 3 cfg1.N = Cert.GraphConv.dense2 (F := Ideal) (V c main_v40) (V c main_v41) (V c main_arg4) :=
  (dat1 V c).arrAt_eq_of_cover 3 _ (fun t _ => flushed_eq V c t) cover

end Cert.GraphConv.Layer2

end
-- ==== Proof.Output.lean ====
/-
  The output layer, computed 5000 rows at a time, is the row-wise log-softmax of `a + b` on all 50000 rows.

  Both programs treat each row of 32 numbers by itself. With `v` the row (the aggregated features plus the bias row) and
  `M` its maximum, taken from `-∞`, entry `c` of the result is `(v c − M) − log ∑ₖ exp (v k − M)` (`lsmRow`). The kernel reduces
  along the lanes of a block and spreads each row's maximum and log-sum back over the row; the reference reduces along axis 1
  of the whole array, takes the maximum once more against `-∞` (which changes nothing) and starts its sum from zero (which
  changes nothing). A row of a block is a row of the array, and the ten blocks tile the 50000 rows.
-/
import proofs.«134392_j14113262535098_1_alg».proof.Proof.Gen.KernelIdeal.Frame
import proofs.«134392_j14113262535098_1_alg».proof.Proof.GraphConv
import Idealize.ShloMosaic.Lib.Pipeline.Value
import Idealize.ShloMosaic.PureOps.Ideal.Laws

set_option maxRecDepth 16384

noncomputable section

namespace Cert.GraphConv.Output

open Cert.KernelIdeal Cert.KernelIdeal.Gen Idealize.ShloMosaic Idealize.ShloMosaic.TcCoe Idealize.SL.Sem
open Idealize.ShloMosaic.Pipeline (Dat)

/-! ## One row -/

/-- The log-softmax of one row `v` of 32 extended reals at column `c`, the row's maximum `M` taken from `-∞`:
    `(v c − M) − log ∑ₖ exp (v k − M)`. -/
def lsmRow (v : Fin 32 → EReal) (c : Fin 32) : EReal :=
  (v c - Finset.univ.fold max ⊥ v) - Ideal.log (∑ k : Fin 32, Ideal.exp (v k - Finset.univ.fold max ⊥ v))

/-- The word of `-∞` is the bottom of the extended reals. -/
theorem negInf : Ideal.ofBits .f32 0xFF800000#32 = ⊥ := by simp [Ideal.ofBits, Ideal.ieee]

/-- Entry `(0, k)` of a one-row matrix. -/
abbrev rowAt (k : Fin 32) : S1x32.Idx := fun a => match a with
  | ⟨0, _⟩ => ⟨0, Nat.one_pos⟩
  | ⟨1, _⟩ => ⟨k.val, k.isLt⟩

/-! ## A block of 5000 rows -/

/-- Entry `(r, k)` of a block. -/
abbrev cell (r : Fin 5000) (k : Fin 32) : S5000x32.Idx := fun a => match a with
  | ⟨0, _⟩ => ⟨r.val, r.isLt⟩
  | ⟨1, _⟩ => ⟨k.val, k.isLt⟩

/-- Row `r`, as an index of a block's column of row results. -/
abbrev at1 (r : Fin 5000) : S5000.Idx := fun a => match a with
  | ⟨0, _⟩ => ⟨r.val, r.isLt⟩

/-- The entry `(r, 0)` of the one-column layout that holds the result of the row of `p`. -/
abbrev colIdx (p : S5000x32.Idx) : S5000x1.Idx := fun a => match a with
  | ⟨0, _⟩ => ⟨(p 0).val, (p 0).isLt⟩
  | ⟨1, _⟩ => ⟨0, Nat.one_pos⟩

/-- The index a lane reduction reads at row `r` and lane `k` is entry `(r, k)`. -/
theorem lift_cell (r : Fin 5000) (k : Fin 32) : reduces_S5000x32_S5000.lift (at1 r) k = cell r k := by
  funext a; apply Fin.ext
  match a with
  | ⟨0, _⟩ => rfl
  | ⟨1, _⟩ => rfl

/-- A column of row results spread back over the rows: entry `(r, c)` is the result of row `r`. -/
theorem spread {α : Type} (u : S5000x1.Idx → α) (p : S5000x32.Idx) :
    broadcastTo S5000x32 u broadcasts_S5000x1_S5000x32 p = u (colIdx p) :=
  broadcastTo_apply u broadcasts_S5000x1_S5000x32 p (colIdx p) (fun a => match a with
    | ⟨0, _⟩ => by show (p 0).val = if (5000 : Nat) = 1 then 0 else (p 0).val; rw [if_neg (by decide)]
    | ⟨1, _⟩ => by show 0 = if (1 : Nat) = 1 then 0 else _; rw [if_pos rfl])

/-- Row results laid out as a column: entry `(r, 0)` is the result of row `r`. -/
theorem column {α : Type} (u : S5000.Idx → α) (p : S5000x32.Idx) :
    shapeCast S5000x1 u shapeCasts_S5000_S5000x1 (colIdx p) = u (at1 ⟨(p 0).val, (p 0).isLt⟩) := by
  refine shapeCast_apply u shapeCasts_S5000_S5000x1 (colIdx p) (at1 ⟨(p 0).val, (p 0).isLt⟩) ?_
  rw [Shape.rowMajor_val_one, Shape.rowMajor_val_two]
  show (p 0).val = (p 0).val * 1 + 0
  omega

/-- The kernel's arithmetic once the bias is added, on any block `s` of 5000 rows: the rows' maxima, the centred
    block, the rows' sums of exponentials, and the centred block minus the rows' log-sums. -/
def lsmBlock (s : FVec Ideal S5000x32 .f32) : FVec Ideal S5000x32 .f32 :=
  subf (subf s (broadcastTo S5000x32 (shapeCast S5000x1 (multiReduction (F := Ideal) .maximumf [1] S5000 s 0xFF800000#32 reduces_S5000x32_S5000 (.inl rfl) rfl) shapeCasts_S5000_S5000x1) broadcasts_S5000x1_S5000x32))
    (broadcastTo S5000x32 (log (shapeCast S5000x1 (multiReduction (F := Ideal) .add [1] S5000 (exp (subf s (broadcastTo S5000x32 (shapeCast S5000x1 (multiReduction (F := Ideal) .maximumf [1] S5000 s 0xFF800000#32 reduces_S5000x32_S5000 (.inl rfl) rfl) shapeCasts_S5000_S5000x1) broadcasts_S5000x1_S5000x32))) 0x00000000#32 reduces_S5000x32_S5000 (.inl rfl) rfl) shapeCasts_S5000_S5000x1)) broadcasts_S5000x1_S5000x32)

/-- The maximum of row `r` of a block, from `-∞`. -/
theorem rowMax (s : FVec Ideal S5000x32 .f32) (r : Fin 5000) :
    multiReduction (F := Ideal) .maximumf [1] S5000 s 0xFF800000#32 reduces_S5000x32_S5000 (.inl rfl) rfl (at1 r)
      = Finset.univ.fold max ⊥ (fun k : Fin 32 => s (cell r k)) := by
  refine (Ideal.multiReduction_maximumf_single s 0xFF800000#32 reduces_S5000x32_S5000 (.inl rfl) rfl (at1 r)).trans ?_
  show Finset.univ.fold max (Ideal.ofBits .f32 0xFF800000#32) (fun k : Fin 32 => s (reduces_S5000x32_S5000.lift (at1 r) k)) = _
  rw [negInf]
  exact congrArg (Finset.univ.fold max ⊥) (funext fun k => by rw [lift_cell])

/-- The sum of row `r` of a block. -/
theorem rowSum (s : FVec Ideal S5000x32 .f32) (r : Fin 5000) :
    multiReduction (F := Ideal) .add [1] S5000 s 0x00000000#32 reduces_S5000x32_S5000 (.inl rfl) rfl (at1 r)
      = ∑ k : Fin 32, s (cell r k) := by
  refine (Ideal.multiReduction_add_single s 0x00000000#32 reduces_S5000x32_S5000 (.inl rfl) rfl (at1 r)).trans ?_
  show ∑ k : Fin 32, s (reduces_S5000x32_S5000.lift (at1 r) k) = _
  exact Finset.sum_congr rfl fun k _ => by rw [lift_cell]

/-- Entry `(r, c)` of the kernel's arithmetic on a block is the log-softmax of the block's row `r` at `c`. -/
theorem lsmBlock_apply (s : FVec Ideal S5000x32 .f32) (j : S5000x32.Idx) :
    lsmBlock s j = lsmRow (fun k => s (cell ⟨(j 0).val, (j 0).isLt⟩ k)) ⟨(j 1).val, (j 1).isLt⟩ := by
  have hcen : ∀ p : S5000x32.Idx,
      subf s (broadcastTo S5000x32 (shapeCast S5000x1 (multiReduction (F := Ideal) .maximumf [1] S5000 s 0xFF800000#32 reduces_S5000x32_S5000 (.inl rfl) rfl) shapeCasts_S5000_S5000x1) broadcasts_S5000x1_S5000x32) p
        = s p - Finset.univ.fold max ⊥ (fun k : Fin 32 => s (cell ⟨(p 0).val, (p 0).isLt⟩ k)) := fun p => by
    show s p - broadcastTo S5000x32 _ broadcasts_S5000x1_S5000x32 p = _
    rw [spread, column, rowMax]
  unfold lsmBlock lsmRow
  show subf s _ j - broadcastTo S5000x32 (log _) broadcasts_S5000x1_S5000x32 j = _
  rw [hcen j, spread]
  show _ - Ideal.log (shapeCast S5000x1 _ shapeCasts_S5000_S5000x1 (colIdx j)) = _
  rw [column, rowSum]
  have hj : s j = s (cell ⟨(j 0).val, (j 0).isLt⟩ ⟨(j 1).val, (j 1).isLt⟩) :=
    congrArg s (funext fun a => Fin.ext (by match a with | ⟨0, _⟩ => rfl | ⟨1, _⟩ => rfl))
  rw [hj]
  refine congrArg (fun z => _ - Ideal.log z) (Finset.sum_congr rfl fun k _ => ?_)
  show Ideal.exp (subf s _ (cell ⟨(j 0).val, (j 0).isLt⟩ k)) = _
  rw [hcen]

/-- The kernel's payload is that arithmetic on the block plus the bias row. -/
theorem pay_eq (ab : Vec Ideal S5000x32 .f32) (bb : Vec Ideal S1x32 .f32) :
    k2_pay1 ab bb = lsmBlock (addf (F := Ideal) (φ := .f32) (shapeCast S5000x32 ab shapeCasts_S5000x32_S5000x32)
      (broadcastTo S5000x32 (shapeCast S1x32 bb shapeCasts_S1x32_S1x32) broadcasts_S1x32_S5000x32)) := rfl

/-- Entry `p` of a block plus the bias row. -/
theorem biased (ab : Vec Ideal S5000x32 .f32) (bb : Vec Ideal S1x32 .f32) (p : S5000x32.Idx) :
    addf (F := Ideal) (φ := .f32) (shapeCast S5000x32 ab shapeCasts_S5000x32_S5000x32)
      (broadcastTo S5000x32 (shapeCast S1x32 bb shapeCasts_S1x32_S1x32) broadcasts_S1x32_S5000x32) p
      = ab p + bb (rowAt ⟨(p 1).val, (p 1).isLt⟩) := by
  show shapeCast S5000x32 ab shapeCasts_S5000x32_S5000x32 p
    + broadcastTo S5000x32 (shapeCast S1x32 bb shapeCasts_S1x32_S1x32) broadcasts_S1x32_S5000x32 p = _
  rw [shapeCast_self, shapeCast_self,
    broadcastTo_apply bb broadcasts_S1x32_S5000x32 p (rowAt ⟨(p 1).val, (p 1).isLt⟩) (fun a => match a with
      | ⟨0, _⟩ => by show 0 = if (1 : Nat) = 1 then 0 else _; rw [if_pos rfl]
      | ⟨1, _⟩ => by show (p 1).val = if (32 : Nat) = 1 then 0 else (p 1).val; rw [if_neg (by decide)])]

/-- Entry `(r, c)` of what the kernel computes from a block and the bias row: the log-softmax of the biased row. -/
theorem block_entry (ab : Vec Ideal S5000x32 .f32) (bb : Vec Ideal S1x32 .f32) (j : S5000x32.Idx) :
    k2_pay1 ab bb j
      = lsmRow (fun k => ab (cell ⟨(j 0).val, (j 0).isLt⟩ k) + bb (rowAt k)) ⟨(j 1).val, (j 1).isLt⟩ := by
  rw [pay_eq, lsmBlock_apply]
  exact congrArg (fun v => lsmRow v _) (funext fun k => biased ab bb _)

end Cert.GraphConv.Output

end
-- ==== Proof.OutputRef.lean ====
/-
  The reference's output layer read one row at a time: entry `(r, c)` of its row-wise log-softmax of `a + b` is the
  log-softmax (`lsmRow`) of row `r` of `a` plus the bias row, at `c`. The reference reduces along axis 1 of the whole
  50000 × 32 array; its second maximum against `-∞` and its sum's start from zero change nothing.
-/
import proofs.«134392_j14113262535098_1_alg».proof.Proof.Output

set_option maxRecDepth 16384

noncomputable section

namespace Cert.GraphConv.Output

open Cert.KernelIdeal Cert.KernelIdeal.Gen Idealize.ShloMosaic Idealize.ShloMosaic.TcCoe Idealize.SL.Sem

/-! ## All 50000 rows -/

/-- Entry `(r, k)` of the whole array. -/
abbrev cellAll (r : Fin 50000) (k : Fin 32) : Cert.ReferenceIdeal.S50000x32.Idx := fun a => match a with
  | ⟨0, _⟩ => ⟨r.val, r.isLt⟩
  | ⟨1, _⟩ => ⟨k.val, k.isLt⟩

/-- Row `r`, as an index of the array's column of row results. -/
abbrev at1All (r : Fin 50000) : Cert.ReferenceIdeal.S50000.Idx := fun a => match a with
  | ⟨0, _⟩ => ⟨r.val, r.isLt⟩

/-- The entry `(r, 0)` of the one-column layout that holds the result of the row of `p`. -/
abbrev colIdxAll (p : Cert.ReferenceIdeal.S50000x32.Idx) : Cert.ReferenceIdeal.S50000x1.Idx := fun a => match a with
  | ⟨0, _⟩ => ⟨(p 0).val, (p 0).isLt⟩
  | ⟨1, _⟩ => ⟨0, Nat.one_pos⟩

/-- `[50000]` is `[50000, 32]` with axis 1 removed. -/
theorem reducesAll : Cert.ReferenceIdeal.S50000x32.Reduces [1] Cert.ReferenceIdeal.S50000 := by decide

theorem liftAll_cell (r : Fin 50000) (k : Fin 32) : reducesAll.lift (at1All r) k = cellAll r k := by
  funext a; apply Fin.ext
  match a with
  | ⟨0, _⟩ => rfl
  | ⟨1, _⟩ => rfl

/-- A column of row results spread back over the rows: entry `(r, c)` is the result of row `r`. -/
theorem spreadAll {α : Type} (h : Cert.ReferenceIdeal.S50000x1.BroadcastsInDim Cert.ReferenceIdeal.S50000x32 ![0, 1]) (u : Cert.ReferenceIdeal.S50000x1.Idx → α)
    (p : Cert.ReferenceIdeal.S50000x32.Idx) : broadcastInDim Cert.ReferenceIdeal.S50000x32 ![0, 1] h u p = u (colIdxAll p) :=
  broadcastInDim_apply _ h u p (colIdxAll p) (fun a => match a with
    | ⟨0, _⟩ => by show (p 0).val = if (50000 : Nat) = 1 then 0 else (p 0).val; rw [if_neg (by decide)]
    | ⟨1, _⟩ => by show 0 = if (1 : Nat) = 1 then 0 else _; rw [if_pos rfl])

/-- Row results laid out as a column: entry `(r, 0)` is the result of row `r`. -/
theorem columnAll {α : Type} (h : Cert.ReferenceIdeal.S50000.BroadcastsInDim Cert.ReferenceIdeal.S50000x1 ![0]) (u : Cert.ReferenceIdeal.S50000.Idx → α)
    (p : Cert.ReferenceIdeal.S50000x32.Idx) :
    broadcastInDim Cert.ReferenceIdeal.S50000x1 ![0] h u (colIdxAll p) = u (at1All ⟨(p 0).val, (p 0).isLt⟩) :=
  broadcastInDim_apply _ h u (colIdxAll p) (at1All ⟨(p 0).val, (p 0).isLt⟩) (fun a => match a with
    | ⟨0, _⟩ => by show (p 0).val = if (50000 : Nat) = 1 then 0 else (p 0).val; rw [if_neg (by decide)])

/-! ## The pointwise operations, read at an index -/

theorem max_vec {s : Shape} (u v : s.Idx → EReal) (q : s.Idx) : maximumf (F := Ideal) (φ := .f32) u v q = max (u q) (v q) := rfl
theorem sub_vec {s : Shape} (u v : s.Idx → EReal) (q : s.Idx) : subf (F := Ideal) (φ := .f32) u v q = u q - v q := rfl
theorem add_vec {s : Shape} (u v : s.Idx → EReal) (q : s.Idx) : addf (F := Ideal) (φ := .f32) u v q = u q + v q := rfl
theorem exp_vec {s : Shape} (u : s.Idx → EReal) (q : s.Idx) : Host.exp (F := Ideal) (φ := .f32) u q = Ideal.exp (u q) := rfl
theorem log_vec {s : Shape} (u : s.Idx → EReal) (q : s.Idx) : Host.log (F := Ideal) (φ := .f32) u q = Ideal.log (u q) := rfl
theorem const_apply {s : Shape} (b : BitVec 32) (q : s.Idx) : constant (F := Ideal) s .f32 b q = Ideal.ofBits .f32 b := rfl

/-- The maximum of row `r` of the array as the reference takes it: the reduction from `-∞`, then once more the maximum
    with `-∞`. -/
theorem rowMaxAll (h0 : Cert.ReferenceIdeal.S_.BroadcastsInDim Cert.ReferenceIdeal.S50000 ![]) (h' : Cert.ReferenceIdeal.S50000x32.ReducesTo [1] Cert.ReferenceIdeal.S50000)
    (hu : 0 < Cert.ReferenceIdeal.S_.numel) (s : Cert.ReferenceIdeal.S50000x32.Idx → EReal) (r : Fin 50000) :
    maximumf (F := Ideal) (φ := .f32) (broadcastInDim Cert.ReferenceIdeal.S50000 ![] h0 (constant (F := Ideal) Cert.ReferenceIdeal.S_ .f32 0xFF800000#32))
        (Host.reduce (FloatOps.maximumf (F := Ideal) (φ := .f32)) s (constant (F := Ideal) Cert.ReferenceIdeal.S_ .f32 0xFF800000#32) h' hu) (at1All r)
      = Finset.univ.fold max ⊥ (fun k : Fin 32 => s (cellAll r k)) := by
  rw [max_vec, broadcastInDim_apply _ h0 (constant (F := Ideal) Cert.ReferenceIdeal.S_ .f32 0xFF800000#32) (at1All r) (fun a => a.elim0) (fun a => a.elim0),
    const_apply, negInf, max_eq_right bot_le]
  refine (Host.reduce_eq_fold_single (FloatOps.maximumf (F := Ideal) (φ := .f32)) s
    (constant (F := Ideal) Cert.ReferenceIdeal.S_ .f32 0xFF800000#32) h' reducesAll hu (at1All r)).trans ?_
  rw [const_apply, negInf]
  show Finset.univ.fold max ⊥ (fun k : Fin 32 => s (reducesAll.lift (at1All r) k)) = _
  exact congrArg (Finset.univ.fold max ⊥) (funext fun k => by rw [liftAll_cell])

/-- The sum of row `r` of the array as the reference takes it: from zero. -/
theorem rowSumAll (h' : Cert.ReferenceIdeal.S50000x32.ReducesTo [1] Cert.ReferenceIdeal.S50000) (hu : 0 < Cert.ReferenceIdeal.S_.numel)
    (s : Cert.ReferenceIdeal.S50000x32.Idx → EReal) (r : Fin 50000) :
    Host.reduceAdd (F := Ideal) (φ := .f32) s (constant (F := Ideal) Cert.ReferenceIdeal.S_ .f32 0x00000000#32) h' hu (at1All r)
      = ∑ k : Fin 32, s (cellAll r k) := by
  unfold Host.reduceAdd
  rw [Ideal.hostReduceAdd_def, Ideal.hostReduceAdd_single h' reducesAll s _ (at1All r), const_apply, Ideal.ofBits_zero_f32, zero_add]
  show ∑ k : Fin 32, s (reducesAll.lift (at1All r) k) = _
  exact Finset.sum_congr rfl fun k _ => by rw [liftAll_cell]

/-- Entry `(r, c)` of the reference's row-wise log-softmax is the log-softmax of row `r` at `c`. -/
theorem logSoftmaxRows_apply (s : Cert.ReferenceIdeal.S50000x32.Idx → EReal) (i : Cert.ReferenceIdeal.S50000x32.Idx) :
    Cert.GraphConv.logSoftmaxRows (F := Ideal) s i
      = lsmRow (fun k => s (cellAll ⟨(i 0).val, (i 0).isLt⟩ k)) ⟨(i 1).val, (i 1).isLt⟩ := by
  have hcen : ∀ p : Cert.ReferenceIdeal.S50000x32.Idx, Cert.GraphConv.centred (F := Ideal) s p
      = s p - Finset.univ.fold max ⊥ (fun k : Fin 32 => s (cellAll ⟨(p 0).val, (p 0).isLt⟩ k)) := fun p => by
    unfold Cert.GraphConv.centred
    rw [sub_vec, spreadAll, columnAll, rowMaxAll]
  unfold Cert.GraphConv.logSoftmaxRows lsmRow
  rw [sub_vec, hcen i, spreadAll, log_vec, columnAll, rowSumAll]
  have hi : s i = s (cellAll ⟨(i 0).val, (i 0).isLt⟩ ⟨(i 1).val, (i 1).isLt⟩) :=
    congrArg s (funext fun a => Fin.ext (by match a with | ⟨0, _⟩ => rfl | ⟨1, _⟩ => rfl))
  rw [hi]
  refine congrArg (fun z => _ - Ideal.log z) (Finset.sum_congr rfl fun k _ => ?_)
  rw [exp_vec, hcen]

/-- Entry `(r, c)` of the reference's output layer: the log-softmax of row `r` of `a` plus the bias row, at `c`. -/
theorem classify_apply (a : Cert.ReferenceIdeal.S50000x32.Idx → EReal) (b : Cert.ReferenceIdeal.S1x32.Idx → EReal) (i : Cert.ReferenceIdeal.S50000x32.Idx) :
    Cert.GraphConv.classify (F := Ideal) a b i
      = lsmRow (fun k => a (cellAll ⟨(i 0).val, (i 0).isLt⟩ k) + b (rowAt k)) ⟨(i 1).val, (i 1).isLt⟩ := by
  unfold Cert.GraphConv.classify
  rw [logSoftmaxRows_apply]
  refine congrArg (fun v => lsmRow v _) (funext fun k => ?_)
  rw [add_vec, broadcastInDim_apply _ _ b (cellAll ⟨(i 0).val, (i 0).isLt⟩ k) (rowAt k) (fun a => match a with
      | ⟨0, _⟩ => by show 0 = if (1 : Nat) = 1 then 0 else _; rw [if_pos rfl]
      | ⟨1, _⟩ => by show k.val = if (32 : Nat) = 1 then 0 else k.val; rw [if_neg (by decide)])]

end Cert.GraphConv.Output

end
-- ==== Proof.OutputBlocks.lean ====
/-
  The output layer's kernel, 5000 rows at a time, leaves the row-wise log-softmax of `a + b` on all 50000 rows: a row of
  a block is a row of the array, what a grid point writes is its block of that array, and the ten blocks tile the rows.
-/
import proofs.«134392_j14113262535098_1_alg».proof.Proof.OutputRef

set_option maxRecDepth 16384

noncomputable section

namespace Cert.GraphConv.Output

open Cert.KernelIdeal Cert.KernelIdeal.Gen Idealize.ShloMosaic Idealize.ShloMosaic.TcCoe Idealize.SL.Sem
open Idealize.ShloMosaic.Pipeline (Dat)

/-! ## From blocks to the array -/

theorem hz : (![0, 0] : Fin 2 → Nat) = fun _ => 0 := funext fun a => by fin_cases a <;> rfl

/-- Where each window's block sits at point `t`: the rows of `a` and of the output move with `t`, the bias row is taken whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the row-wise log-softmax of `a + b`, the arrays as the region finds them. -/
theorem flushed_eq (c : Dev nD) (t : Fin cfg2.N) :
    (dat2 V c).flushed 2 t = ((cfg2.win 2).blk t).view.read (Elt Ideal)
      (Cert.GraphConv.classify (F := Ideal) (V c main_v55) (V c main_v56)) := by
  show (cfg2.win 2).cut (grid2.coords t) ((dat2 V c).after 2 t) = _
  rw [after2_2]
  unfold out2_2
  rw [View.canon_unit_zero hz]
  simp only [View.ld_unit_zero (S := S5000x32) hz, View.ld_unit_zero (S := S1x32) hz]
  obtain ⟨e0, e1, e2, e3, e4, e5⟩ := idx_facts t
  funext j
  show k2_pay1 (iblk2 V c 0 t) (iblk2 V c 1 t) j
    = Cert.GraphConv.classify (F := Ideal) (V c main_v55) (V c main_v56) (((cfg2.win 2).blk t).view.emb j)
  refine (block_entry (iblk2 V c 0 t) (iblk2 V c 1 t) j).trans ?_
  refine Eq.trans ?_ (classify_apply (V c main_v55) (V c main_v56) (((cfg2.win 2).blk t).view.emb j)).symm
  have hc : (⟨(j 1).val, (j 1).isLt⟩ : Fin 32)
      = ⟨((((cfg2.win 2).blk t).view.emb j) 1).val, ((((cfg2.win 2).blk t).view.emb j) 1).isLt⟩ :=
    Fin.ext (by show (j 1).val = win2_2.index t (1 : Fin 2) * 32 + 1 * (j 1).val; omega)
  refine congrArg₂ lsmRow (funext fun k => ?_) hc
  have h0 : ((cfg2.win 0).blk t).view.emb (cell ⟨(j 0).val, (j 0).isLt⟩ k)
      = cellAll ⟨((((cfg2.win 2).blk t).view.emb j) 0).val, ((((cfg2.win 2).blk t).view.emb j) 0).isLt⟩ k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * k.val = k.val; omega
  have h1 : ((cfg2.win 1).blk t).view.emb (rowAt k) = rowAt k := by
    funext a; apply Fin.ext
    match a with
    | ⟨0, _⟩ => show win2_1.index t (0 : Fin 2) * 1 + 1 * 0 = 0; omega
    | ⟨1, _⟩ => show win2_1.index t (1 : Fin 2) * 32 + 1 * k.val = k.val; omega
  exact congrArg₂ (fun u v : EReal => u + v) (congrArg (V c main_v55) h0) (congrArg (V c main_v56) h1)

/-- An index of the output is in point `t`'s block iff each coordinate is in the block's range on its axis. -/
theorem mem_blk (t : Fin cfg2.N) (i : S50000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v57).slice (win2_2.rect t)).set ↔ _
  rw [View.set_slice_whole, Rect.mem_set_unit]
  exact Iff.rfl

/-- Row `r` of the output is written by point `r / 5000`: the ten blocks tile the 50000 rows. -/
theorem cover (i : S50000x32.Idx) : ∃ t : Fin cfg2.N, (cfg2.win 2).flush t = true ∧ i ∈ ((cfg2.win 2).blk t).view.set := by
  have hi0 : (i 0).val < 50000 := (i 0).isLt
  have hi1 : (i 1).val < 32 := (i 1).isLt
  have hN : grid2.N = 10 := N_2
  have hlt : (i 0).val / 5000 < grid2.N := by rw [hN]; omega
  obtain ⟨e0, e1, e2, e3, e4, e5⟩ := idx_facts ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_blk]
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 32 ≤ (i 1).val ∧ (i 1).val < win2_2.index ⟨(i 0).val / 5000, hlt⟩ (1 : Fin 2) * 32 + 32; omega

/-- The third kernel's output array after the region: the row-wise log-softmax of `a + b`, the arrays the region was
    entered with. -/
theorem final (c : Dev nD) :
    (dat2 V c).arrAt 2 cfg2.N = Cert.GraphConv.classify (F := Ideal) (V c main_v55) (V c main_v56) :=
  (dat2 V c).arrAt_eq_of_cover 2 _ (fun t _ => flushed_eq V c t) cover

end Cert.GraphConv.Output

end
-- ==== Proof.KernelRun.lean ====
/-
  The kernel program, run at the extended reals, ends at the network of GraphConv.lean, its two biases reshaped to rows.

  The buffer contents are followed from the launch to the return, boundary by boundary: the first stretch of host
  operations leaves the node lists and the edge weights; the first kernel leaves `x · w1` (Layer1.lean); the second stretch
  aggregates it along the edges and reshapes the hidden bias; the second kernel leaves `max(a + b1, 0) · w2` (Layer2.lean);
  the third stretch aggregates that and reshapes the output bias; the third kernel leaves the row-wise log-softmax
  (OutputBlocks.lean). A kernel changes only its own arrays and a stretch only the buffers its operations write, so the
  node lists, the weights and the later arguments reach the places they are read unchanged.
-/
import proofs.«134392_j14113262535098_1_alg».proof.Proof.KernelExit
import proofs.«134392_j14113262535098_1_alg».proof.Proof.KernelStages
import proofs.«134392_j14113262535098_1_alg».proof.Proof.Layer1
import proofs.«134392_j14113262535098_1_alg».proof.Proof.Layer2
import proofs.«134392_j14113262535098_1_alg».proof.Proof.OutputBlocks

set_option maxRecDepth 16384

noncomputable section

namespace Cert.GraphConv.KernelRun

open Cert.KernelIdeal Cert.KernelIdeal.Gen Idealize.ShloMosaic Idealize.ShloMosaic.TcCoe Idealize.SL.Sem
open Cert.GraphConv.Stretches

variable (m : (ℓ : Loc nD τ sig) → Buf (Elt Ideal) ℓ) (ρ : Dev nD → PrngReg) (c : Dev nD)

/-! ## When the first kernel starts -/

theorem w1_main_v5 : W1 m ρ c (Proc.devRef .tc main_v5) = (Cert.GraphConv.sources (F := Ideal) (m ((c : Thread nD τ).loc main_arg1))) := s0_sources (W0 m ρ c)
theorem w1_main_v6 : W1 m ρ c (Proc.devRef .tc main_v6) = (Cert.GraphConv.targets (F := Ideal) (m ((c : Thread nD τ).loc main_arg1))) := s0_targets (W0 m ρ c)
theorem w1_main_v26 : W1 m ρ c (Proc.devRef .tc main_v26) = (Cert.GraphConv.edgeWeight (F := Ideal) (m ((c : Thread nD τ).loc main_arg1))) := s0_weights (W0 m ρ c)
theorem w1_main_arg0 : W1 m ρ c (Proc.devRef .tc main_arg0) = (m ((c : Thread nD τ).loc main_arg0)) := s0_keep_main_arg0 (W0 m ρ c)
theorem w1_main_arg2 : W1 m ρ c (Proc.devRef .tc main_arg2) = (m ((c : Thread nD τ).loc main_arg2)) := s0_keep_main_arg2 (W0 m ρ c)
theorem w1_main_arg3 : W1 m ρ c (Proc.devRef .tc main_arg3) = (m ((c : Thread nD τ).loc main_arg3)) := s0_keep_main_arg3 (W0 m ρ c)
theorem w1_main_arg4 : W1 m ρ c (Proc.devRef .tc main_arg4) = (m ((c : Thread nD τ).loc main_arg4)) := s0_keep_main_arg4 (W0 m ρ c)
theorem w1_main_arg5 : W1 m ρ c (Proc.devRef .tc main_arg5) = (m ((c : Thread nD τ).loc main_arg5)) := s0_keep_main_arg5 (W0 m ρ c)

/-! ## When the first kernel has finished -/

theorem w2_main_v27 : W2 m ρ c (Proc.devRef .tc main_v27) = (Cert.GraphConv.dense1 (F := Ideal) (m ((c : Thread nD τ).loc main_arg0)) (m ((c : Thread nD τ).loc main_arg2))) :=
  (W2_arr m ρ c 2).trans ((Cert.GraphConv.Layer1.final (V1 m ρ) c).trans
    (congrArg₂ (Cert.GraphConv.dense1 (F := Ideal)) (w1_main_arg0 m ρ c) (w1_main_arg2 m ρ c)))
theorem w2_main_v5 : W2 m ρ c (Proc.devRef .tc main_v5) = (Cert.GraphConv.sources (F := Ideal) (m ((c : Thread nD τ).loc main_arg1))) := (W2_of_ne m ρ c main_v5 (by decide)).trans (w1_main_v5 m ρ c)
theorem w2_main_v6 : W2 m ρ c (Proc.devRef .tc main_v6) = (Cert.GraphConv.targets (F := Ideal) (m ((c : Thread nD τ).loc main_arg1))) := (W2_of_ne m ρ c main_v6 (by decide)).trans (w1_main_v6 m ρ c)
theorem w2_main_v26 : W2 m ρ c (Proc.devRef .tc main_v26) = (Cert.GraphConv.edgeWeight (F := Ideal) (m ((c : Thread nD τ).loc main_arg1))) := (W2_of_ne m ρ c main_v26 (by decide)).trans (w1_main_v26 m ρ c)
theorem w2_main_arg3 : W2 m ρ c (Proc.devRef .tc main_arg3) = (m ((c : Thread nD τ).loc main_arg3)) := (W2_of_ne m ρ c main_arg3 (by decide)).trans (w1_main_arg3 m ρ c)
theorem w2_main_arg4 : W2 m ρ c (Proc.devRef .tc main_arg4) = (m ((c : Thread nD τ).loc main_arg4)) := (W2_of_ne m ρ c main_arg4 (by decide)).trans (w1_main_arg4 m ρ c)
theorem w2_main_arg5 : W2 m ρ c (Proc.devRef .tc main_arg5) = (m ((c : Thread nD τ).loc main_arg5)) := (W2_of_ne m ρ c main_arg5 (by decide)).trans (w1_main_arg5 m ρ c)

/-! ## When the second kernel starts -/

theorem w3_main_v40 : W3 m ρ c (Proc.devRef .tc main_v40) = (Cert.GraphConv.aggregate128 (F := Ideal) (Cert.GraphConv.sources (F := Ideal) (m ((c : Thread nD τ).loc main_arg1))) (Cert.GraphConv.targets (F := Ideal) (m ((c : Thread nD τ).loc main_arg1))) (Cert.GraphConv.edgeWeight (F := Ideal) (m ((c : Thread nD τ).loc main_arg1))) (Cert.GraphConv.dense1 (F := Ideal) (m ((c : Thread nD τ).loc main_arg0)) (m ((c : Thread nD τ).loc main_arg2)))) :=
  (s1_aggregate (W2 m ρ c)).trans (by rw [w2_main_v5, w2_main_v6, w2_main_v26, w2_main_v27])
theorem w3_main_v41 : W3 m ρ c (Proc.devRef .tc main_v41) = (shapeCast S1x128 (m ((c : Thread nD τ).loc main_arg3)) shapeCasts_S128_S1x128) :=
  (s1_bias (W2 m ρ c)).trans (by rw [w2_main_arg3])
theorem w3_main_arg4 : W3 m ρ c (Proc.devRef .tc main_arg4) = (m ((c : Thread nD τ).loc main_arg4)) := (s1_keep_main_arg4 (W2 m ρ c)).trans (w2_main_arg4 m ρ c)
theorem w3_main_arg5 : W3 m ρ c (Proc.devRef .tc main_arg5) = (m ((c : Thread nD τ).loc main_arg5)) := (s1_keep_main_arg5 (W2 m ρ c)).trans (w2_main_arg5 m ρ c)
theorem w3_main_v5 : W3 m ρ c (Proc.devRef .tc main_v5) = (Cert.GraphConv.sources (F := Ideal) (m ((c : Thread nD τ).loc main_arg1))) := (s1_keep_main_v5 (W2 m ρ c)).trans (w2_main_v5 m ρ c)
theorem w3_main_v6 : W3 m ρ c (Proc.devRef .tc main_v6) = (Cert.GraphConv.targets (F := Ideal) (m ((c : Thread nD τ).loc main_arg1))) := (s1_keep_main_v6 (W2 m ρ c)).trans (w2_main_v6 m ρ c)
theorem w3_main_v26 : W3 m ρ c (Proc.devRef .tc main_v26) = (Cert.GraphConv.edgeWeight (F := Ideal) (m ((c : Thread nD τ).loc main_arg1))) := (s1_keep_main_v26 (W2 m ρ c)).trans (w2_main_v26 m ρ c)

/-! ## When the second kernel has finished -/

theorem w4_main_v42 : W4 m ρ c (Proc.devRef .tc main_v42) = (Cert.GraphConv.dense2 (F := Ideal) (Cert.GraphConv.aggregate128 (F := Ideal) (Cert.GraphConv.sources (F := Ideal) (m ((c : Thread nD τ).loc main_arg1))) (Cert.GraphConv.targets (F := Ideal) (m ((c : Thread nD τ).loc main_arg1))) (Cert.GraphConv.edgeWeight (F := Ideal) (m ((c : Thread nD τ).loc main_arg1))) (Cert.GraphConv.dense1 (F := Ideal) (m ((c : Thread nD τ).loc main_arg0)) (m ((c : Thread nD τ).loc main_arg2)))) (shapeCast S1x128 (m ((c : Thread nD τ).loc main_arg3)) shapeCasts_S128_S1x128) (m ((c : Thread nD τ).loc main_arg4))) :=
  (W4_arr m ρ c 3).trans ((Cert.GraphConv.Layer2.final (V3 m ρ) c).trans (by
    show Cert.GraphConv.dense2 (F := Ideal) (W3 m ρ c (Proc.devRef .tc main_v40)) (W3 m ρ c (Proc.devRef .tc main_v41)) (W3 m ρ c (Proc.devRef .tc main_arg4)) = _
    rw [w3_main_v40, w3_main_v41, w3_main_arg4]))
theorem w4_main_v5 : W4 m ρ c (Proc.devRef .tc main_v5) = (Cert.GraphConv.sources (F := Ideal) (m ((c : Thread nD τ).loc main_arg1))) := (W4_of_ne m ρ c main_v5 (by decide)).trans (w3_main_v5 m ρ c)
theorem w4_main_v6 : W4 m ρ c (Proc.devRef .tc main_v6) = (Cert.GraphConv.targets (F := Ideal) (m ((c : Thread nD τ).loc main_arg1))) := (W4_of_ne m ρ c main_v6 (by decide)).trans (w3_main_v6 m ρ c)
theorem w4_main_v26 : W4 m ρ c (Proc.devRef .tc main_v26) = (Cert.GraphConv.edgeWeight (F := Ideal) (m ((c : Thread nD τ).loc main_arg1))) := (W4_of_ne m ρ c main_v26 (by decide)).trans (w3_main_v26 m ρ c)
theorem w4_main_arg5 : W4 m ρ c (Proc.devRef .tc main_arg5) = (m ((c : Thread nD τ).loc main_arg5)) := (W4_of_ne m ρ c main_arg5 (by decide)).trans (w3_main_arg5 m ρ c)

/-! ## When the third kernel starts -/

theorem w5_main_v55 : W5 m ρ c (Proc.devRef .tc main_v55) = (Cert.GraphConv.aggregate32 (F := Ideal) (Cert.GraphConv.sources (F := Ideal) (m ((c : Thread nD τ).loc main_arg1))) (Cert.GraphConv.targets (F := Ideal) (m ((c : Thread nD τ).loc main_arg1))) (Cert.GraphConv.edgeWeight (F := Ideal) (m ((c : Thread nD τ).loc main_arg1))) (Cert.GraphConv.dense2 (F := Ideal) (Cert.GraphConv.aggregate128 (F := Ideal) (Cert.GraphConv.sources (F := Ideal) (m ((c : Thread nD τ).loc main_arg1))) (Cert.GraphConv.targets (F := Ideal) (m ((c : Thread nD τ).loc main_arg1))) (Cert.GraphConv.edgeWeight (F := Ideal) (m ((c : Thread nD τ).loc main_arg1))) (Cert.GraphConv.dense1 (F := Ideal) (m ((c : Thread nD τ).loc main_arg0)) (m ((c : Thread nD τ).loc main_arg2)))) (shapeCast S1x128 (m ((c : Thread nD τ).loc main_arg3)) shapeCasts_S128_S1x128) (m ((c : Thread nD τ).loc main_arg4)))) :=
  (s2_aggregate (W4 m ρ c)).trans (by rw [w4_main_v5, w4_main_v6, w4_main_v26, w4_main_v42])
theorem w5_main_v56 : W5 m ρ c (Proc.devRef .tc main_v56) = (shapeCast S1x32 (m ((c : Thread nD τ).loc main_arg5)) shapeCasts_S32_S1x32) :=
  (s2_bias (W4 m ρ c)).trans (by rw [w4_main_arg5])

/-! ## At the return -/

/-- The result buffer's final contents: the network of the launch contents of the arguments. -/
theorem exit_value : W6 m ρ c (Proc.devRef .tc main_v57)
    = Cert.GraphConv.network (F := Ideal) (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x32 (m ((c : Thread nD τ).loc main_arg5)) shapeCasts_S32_S1x32) :=
  (W6_arr m ρ c 2).trans ((Cert.GraphConv.Output.final (V5 m ρ) c).trans (by
    show Cert.GraphConv.classify (F := Ideal) (W5 m ρ c (Proc.devRef .tc main_v55)) (W5 m ρ c (Proc.devRef .tc main_v56)) = _
    rw [w5_main_v55, w5_main_v56]
    rfl))

/-- Every weakly fair execution of the kernel program terminates with its result at the network of the arguments, the
    arguments unchanged. -/
theorem run : θ_run defs (onTc (τ := τ) (main (F := Ideal))) ⟨m, fun _ => 0, ρ⟩ fun r => ∀ c : Dev nD,
      r.2.mem ((c.tc : Thread nD τ).loc main_v57)
        = Cert.GraphConv.network (F := Ideal) (m ((c.tc : Thread nD τ).loc main_arg0)) (m ((c.tc : Thread nD τ).loc main_arg1)) (m ((c.tc : Thread nD τ).loc main_arg2))
            (shapeCast S1x128 (m ((c.tc : Thread nD τ).loc main_arg3)) shapeCasts_S128_S1x128) (m ((c.tc : Thread nD τ).loc main_arg4))
            (shapeCast S1x32 (m ((c.tc : Thread nD τ).loc main_arg5)) shapeCasts_S32_S1x32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (exit_value m ρ c), (h c).2⟩) (Cert.GraphConv.KernelExit.run_exit m ρ)

end Cert.GraphConv.KernelRun

end
-- ==== Proof.LibStages.lean ====
/-
  Reading a straight line of host operations back in stages.

  The contents a line of operations leaves are a fold of the operations' results over the contents it starts from, so a
  line cut in two anywhere is read back in two steps: the head part from the starting contents, then the tail part from
  what the head part leaves. Cutting a long line into short stages, each read back once over ARBITRARY starting
  contents, keeps every term as small as one stage.
-/
import Idealize.ShloMosaic.Lib.StableHlo.Run

noncomputable section

namespace Idealize.ShloMosaic.StableHlo

variable {τ : Topo} {sig : RefSig} {Val : EltTy → Type}

/-- The contents after two lines run one after the other: the second line's, from what the first leaves. -/
theorem after_append (A B : List (HloOp τ sig Val)) (V : Valuation τ sig Val) :
    after (A ++ B) V = after B (after A V) := by
  induction A generalizing V with
  | nil => rfl
  | cons a A ih => exact ih (a.result V)

/-- A line cut after its first `n` operations: the rest, from what the first `n` leave. -/
theorem after_take_drop (n : Nat) (ops : List (HloOp τ sig Val)) (V : Valuation τ sig Val) :
    after ops V = after (ops.drop n) (after (ops.take n) V) := by
  rw [← after_append, List.take_append_drop]

end Idealize.ShloMosaic.StableHlo

end
-- ==== Proof.RefNet.lean ====
/-
  The reference program ends at the network of GraphConv.lean, its two biases laid out as rows by a broadcast.

  The reference is a straight line of 120 host operations. It is read back in five stages, each over ARBITRARY starting
  contents `V`, so that every term stays as small as one stage: (A) the edge list's two rows, the node lists with the self
  loops, the edge weights and the first product; (B) the first aggregation, the hidden bias, the maximum with zero and the
  second product; (C) the node lists and the edge weights once more, which the reference recomputes from the two rows;
  (D) the second aggregation and the output bias; (E) the row-wise log-softmax. What a stage leaves in a buffer is the
  composition of the operations leading to it, applied to the starting contents of the buffers they read; the
  compositions are those of GraphConv.lean. The five stages composed give the network of the launch contents.

  A bias vector `b : [n]` becomes the row `[1, n]` either by a reshape (what the kernel's host code does) or by a broadcast
  along a new leading axis (what the reference does): the same row, entry by entry.
-/
import proofs.«134392_j14113262535098_1_alg».proof.Proof.RefRun
import proofs.«134392_j14113262535098_1_alg».proof.Proof.GraphConv
import proofs.«134392_j14113262535098_1_alg».proof.Proof.LibStages
import Idealize.ShloMosaic.Lib.Pipeline.Value

set_option maxRecDepth 16384

noncomputable section

namespace Cert.GraphConv.Reference

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The bias rows -/

/-- The hidden layer's bias as a row, by a broadcast along a new leading axis. -/
def row128 (b : (⟨S128, .f32⟩ : BufTy).Contents (Elt F)) : (⟨S1x128, .f32⟩ : BufTy).Contents (Elt F) :=
  broadcastInDim S1x128 ![1] bcast_S128_S1x128_1 b

/-- The output layer's bias as a row, by a broadcast along a new leading axis. -/
def row32 (b : (⟨S32, .f32⟩ : BufTy).Contents (Elt F)) : (⟨S1x32, .f32⟩ : BufTy).Contents (Elt F) :=
  broadcastInDim S1x32 ![1] bcast_S32_S1x32_1 b

/-- Reshaping `[128]` to `[1, 128]` gives the same row as broadcasting it there: entry `(0, k)` is `b k`. -/
theorem reshape_row128 {α : Type} (b : S128.Idx → α) (h : S128.ShapeCasts S1x128) :
    shapeCast S1x128 b h = broadcastInDim S1x128 ![1] bcast_S128_S1x128_1 b := by
  funext p
  have hp0 : (p 0).val < 1 := (p 0).isLt
  have hp1 : (p 1).val < 128 := (p 1).isLt
  rw [shapeCast_apply b h p (fun a => match a with | ⟨0, _⟩ => ⟨(p 1).val, hp1⟩) (by
        rw [Shape.rowMajor_val_one, Shape.rowMajor_val_two]
        show (p 1).val = (p 0).val * 128 + (p 1).val
        omega),
      broadcastInDim_apply _ bcast_S128_S1x128_1 b p (fun a => match a with | ⟨0, _⟩ => ⟨(p 1).val, hp1⟩) (fun a => match a with
        | ⟨0, _⟩ => by show (p 1).val = if (128 : Nat) = 1 then 0 else (p 1).val; rw [if_neg (by decide)])]

/-- Reshaping `[32]` to `[1, 32]` gives the same row as broadcasting it there: entry `(0, k)` is `b k`. -/
theorem reshape_row32 {α : Type} (b : S32.Idx → α) (h : S32.ShapeCasts S1x32) :
    shapeCast S1x32 b h = broadcastInDim S1x32 ![1] bcast_S32_S1x32_1 b := by
  funext p
  have hp0 : (p 0).val < 1 := (p 0).isLt
  have hp1 : (p 1).val < 32 := (p 1).isLt
  rw [shapeCast_apply b h p (fun a => match a with | ⟨0, _⟩ => ⟨(p 1).val, hp1⟩) (by
        rw [Shape.rowMajor_val_one, Shape.rowMajor_val_two]
        show (p 1).val = (p 0).val * 32 + (p 1).val
        omega),
      broadcastInDim_apply _ bcast_S32_S1x32_1 b p (fun a => match a with | ⟨0, _⟩ => ⟨(p 1).val, hp1⟩) (fun a => match a with
        | ⟨0, _⟩ => by show (p 1).val = if (32 : Nat) = 1 then 0 else (p 1).val; rw [if_neg (by decide)])]

/-! ## The pieces the reference names twice -/

/-- Row 0 of the edge list as a vector: the sources of the 800000 edges. -/
def edgeRow0 (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list as a vector: the targets of the 800000 edges. -/
def edgeRow1 (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A list of 800000 nodes followed by the self loops `0 … 49999`. -/
def withLoops (v : (⟨S800000, .i32⟩ : BufTy).Contents (Elt F)) : (⟨S850000, .i32⟩ : BufTy).Contents (Elt F) :=
  concatenate S850000 0 [⟨S800000, v⟩, ⟨S50000, (iotaInDim S50000 32 0)⟩] concatenates_S800000_S50000_S850000_d0

theorem sources_eq (e : (⟨S2x800000, .i32⟩ : BufTy).Contents (Elt F)) : withLoops (edgeRow0 e) = Cert.GraphConv.sources e := rfl
theorem targets_eq (e : (⟨S2x800000, .i32⟩ : BufTy).Contents (Elt F)) : withLoops (edgeRow1 e) = Cert.GraphConv.targets e := rfl

/-! ## The five stages -/

section Stages

set_option maxHeartbeats 8000000

variable (V : Valuation τ sig (Elt F))

/-- One stage read back: its operations made explicit, each result rewritten to its operation's value. -/
local macro "stage" : tactic =>
  `(tactic| (dsimp only [ops, List.drop, List.take]; after_results_simp <;> rfl))

theorem a_row0 : after ((ops (F := F)).take 34) V (Proc.devRef .tc main_v1) = edgeRow0 (V (Proc.devRef .tc main_arg1)) := by stage
theorem a_row1 : after ((ops (F := F)).take 34) V (Proc.devRef .tc main_v3) = edgeRow1 (V (Proc.devRef .tc main_arg1)) := by stage
theorem a_dense : after ((ops (F := F)).take 34) V (Proc.devRef .tc main_v4) = Cert.GraphConv.dense1 (V (Proc.devRef .tc main_arg0)) (V (Proc.devRef .tc main_arg2)) := by stage
theorem a_sources : after ((ops (F := F)).take 34) V (Proc.devRef .tc main_v6) = Cert.GraphConv.sources (V (Proc.devRef .tc main_arg1)) := by stage
theorem a_targets : after ((ops (F := F)).take 34) V (Proc.devRef .tc main_v7) = Cert.GraphConv.targets (V (Proc.devRef .tc main_arg1)) := by stage
theorem a_weights : after ((ops (F := F)).take 34) V (Proc.devRef .tc main_v27) = Cert.GraphConv.edgeWeight (V (Proc.devRef .tc main_arg1)) := by stage
theorem a_arg3 : after ((ops (F := F)).take 34) V (Proc.devRef .tc main_arg3) = (V (Proc.devRef .tc main_arg3)) := by stage
theorem a_arg4 : after ((ops (F := F)).take 34) V (Proc.devRef .tc main_arg4) = (V (Proc.devRef .tc main_arg4)) := by stage
theorem a_arg5 : after ((ops (F := F)).take 34) V (Proc.devRef .tc main_arg5) = (V (Proc.devRef .tc main_arg5)) := by stage

theorem b_dense : after (((ops (F := F)).drop 34).take 23) V (Proc.devRef .tc main_v45) = Cert.GraphConv.dense2 (Cert.GraphConv.aggregate128 (V (Proc.devRef .tc main_v6)) (V (Proc.devRef .tc main_v7)) (V (Proc.devRef .tc main_v27)) (V (Proc.devRef .tc main_v4))) (row128 (V (Proc.devRef .tc main_arg3))) (V (Proc.devRef .tc main_arg4)) := by stage
theorem b_row0 : after (((ops (F := F)).drop 34).take 23) V (Proc.devRef .tc main_v1) = (V (Proc.devRef .tc main_v1)) := by stage
theorem b_row1 : after (((ops (F := F)).drop 34).take 23) V (Proc.devRef .tc main_v3) = (V (Proc.devRef .tc main_v3)) := by stage
theorem b_arg5 : after (((ops (F := F)).drop 34).take 23) V (Proc.devRef .tc main_arg5) = (V (Proc.devRef .tc main_arg5)) := by stage

theorem c_sources : after ((((ops (F := F)).drop 34).drop 23).take 29) V (Proc.devRef .tc main_v47) = withLoops (V (Proc.devRef .tc main_v1)) := by stage
theorem c_targets : after ((((ops (F := F)).drop 34).drop 23).take 29) V (Proc.devRef .tc main_v48) = withLoops (V (Proc.devRef .tc main_v3)) := by stage
theorem c_weights : after ((((ops (F := F)).drop 34).drop 23).take 29) V (Proc.devRef .tc main_v68) = Cert.GraphConv.weightsOf (withLoops (V (Proc.devRef .tc main_v1))) (withLoops (V (Proc.devRef .tc main_v3))) := by stage
theorem c_dense : after ((((ops (F := F)).drop 34).drop 23).take 29) V (Proc.devRef .tc main_v45) = (V (Proc.devRef .tc main_v45)) := by stage
theorem c_arg5 : after ((((ops (F := F)).drop 34).drop 23).take 29) V (Proc.devRef .tc main_arg5) = (V (Proc.devRef .tc main_arg5)) := by stage

theorem d_logits : after (((((ops (F := F)).drop 34).drop 23).drop 29).take 19) V (Proc.devRef .tc main_v84) = addf (Cert.GraphConv.aggregate32 (V (Proc.devRef .tc main_v47)) (V (Proc.devRef .tc main_v48)) (V (Proc.devRef .tc main_v68)) (V (Proc.devRef .tc main_v45))) (broadcastInDim S50000x32 ![0, 1] bcast_S1x32_S50000x32_0_1 (row32 (V (Proc.devRef .tc main_arg5)))) := by stage

/-- A value moved to its buffer's own type and back is itself. -/
theorem ofBuf_toBuf {T : BufTy} (x : TRef sig T) (v : T.Contents (Elt F)) : x.ofBuf (x.toBuf v) = v := by
  obtain ⟨r, h, d, u⟩ := x
  subst h
  rfl

/-- At the result's buffer the move to the buffer's own type is the identity. -/
theorem toBuf_result (v : (⟨S50000x32, .f32⟩ : BufTy).Contents (Elt F)) : (TRef.of (T := (⟨S50000x32, .f32⟩ : BufTy)) main_v85).toBuf v = v := rfl

/-- At the logits' buffer the move from the buffer's own type is the identity. -/
theorem ofBuf_logits (v : (⟨S50000x32, .f32⟩ : BufTy).Contents (Elt F)) : (TRef.of (T := (⟨S50000x32, .f32⟩ : BufTy)) main_v84).ofBuf v = v := rfl

theorem e_result : after (((((ops (F := F)).drop 34).drop 23).drop 29).drop 19) V (Proc.devRef .tc main_v85)
    = Cert.GraphConv.logSoftmaxRows ((TRef.of (T := (⟨S50000x32, .f32⟩ : BufTy)) main_v84).ofBuf (V (Proc.devRef .tc main_v84))) := by
  dsimp only [ops, List.drop, List.take]
  after_results
  simp only [ofBuf_toBuf]
  rw [toBuf_result]
  generalize (TRef.of (T := (⟨S50000x32, .f32⟩ : BufTy)) main_v84).ofBuf (V (Proc.devRef .tc main_v84)) = a
  rfl

end Stages

/-! ## The stages composed -/

/-- The contents of the result buffer after the reference's 120 operations: the network of the starting contents of the
    argument buffers. -/
theorem result_eq (W : Valuation τ sig (Elt F)) :
    after (ops (F := F)) W (Proc.devRef .tc main_v85)
      = Cert.GraphConv.network (F := F) (W (Proc.devRef .tc main_arg0)) (W (Proc.devRef .tc main_arg1)) (W (Proc.devRef .tc main_arg2))
          (row128 (W (Proc.devRef .tc main_arg3))) (W (Proc.devRef .tc main_arg4)) (row32 (W (Proc.devRef .tc main_arg5))) := by
  rw [after_take_drop 34 (ops (F := F)) W, after_take_drop 23 ((ops (F := F)).drop 34) _,
    after_take_drop 29 (((ops (F := F)).drop 34).drop 23) _, after_take_drop 19 ((((ops (F := F)).drop 34).drop 23).drop 29) _]
  rw [e_result, ofBuf_logits, d_logits, c_sources, c_targets, c_weights, c_dense, c_arg5, b_dense, b_row0, b_row1, b_arg5,
    a_row0, a_row1, a_dense, a_sources, a_targets, a_weights, a_arg3, a_arg4, a_arg5]
  rfl

/-! ## The run -/

set_option maxHeartbeats 48000000 in
/-- Every weakly fair execution of the reference terminates with its result at the network of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = Cert.GraphConv.network (F := F) (m ((c.tc : Thread nD τ).loc main_arg0)) (m ((c.tc : Thread nD τ).loc main_arg1)) (m ((c.tc : Thread nD τ).loc main_arg2))
            (row128 (m ((c.tc : Thread nD τ).loc main_arg3))) (m ((c.tc : Thread nD τ).loc main_arg4)) (row32 (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v85).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.GraphConv.Reference

end
-- ==== Proof.lean ====
/-
  A two-layer graph convolution computed by three kernels among host gathers and scatter-adds is, on the extended reals,
  the same function of its inputs as the plain reference.

  Both programs compute, for node features `x`, an edge list `e`, weights `w1`, `w2` and biases `b1`, `b2`,
      log_softmax (P (max (P (x · w1) + b1, 0) · w2) + b2)        along each row,
  where `P` adds up, for every node, the features of the sources of its incoming edges (self loops included), each scaled
  by `deg(source)^(-1/2) · deg(target)^(-1/2)`. The kernel computes the three dense parts 5000 rows at a time and leaves `P`
  to the host; the reference is host operations throughout. The two texts of `P` apply the same operations to the same
  node numbers, so nothing has to be known about `P` beyond its text; each dense part is the same sum or the same
  row-wise function entry by entry (Layer1.lean, Layer2.lean, Output*.lean); and a bias reshaped to a row is the bias
  broadcast to a row. No law of arithmetic that could fail at an infinity is used, so the inputs' finiteness is not needed.

  The frames of the two kernel programs are the generated ones; the reference's frame is its run with the result dropped.
  The idealization rewrote no operation, so there is nothing to preserve.
-/
import proofs.«134392_j14113262535098_1_alg».proof.Defs
import proofs.«134392_j14113262535098_1_alg».proof.Proof.Gen.Kernel
import proofs.«134392_j14113262535098_1_alg».proof.Proof.Gen.Kernel.Frame
import proofs.«134392_j14113262535098_1_alg».proof.Proof.Gen.KernelIdeal
import proofs.«134392_j14113262535098_1_alg».proof.Proof.Gen.KernelIdeal.Frame
import proofs.«134392_j14113262535098_1_alg».proof.Proof.Gen.ReferenceIdeal
import proofs.«134392_j14113262535098_1_alg».proof.Proof.Gen.Pre_finite_inputs
import proofs.«134392_j14113262535098_1_alg».proof.Proof.KernelRun
import proofs.«134392_j14113262535098_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.GraphConv.Reference.run (F := Ideal) m ρ)

/-- Both programs end at the network of the arguments; the kernel's biases are rows by a reshape, the reference's by a
    broadcast, which is the same row. -/
theorem algebraic : Cert.algebraic_KernelIdeal_ReferenceIdeal := by
  intro m ρ m' ρ' _ hagree
  refine ⟨_, Cert.GraphConv.KernelRun.run m ρ, ?_⟩
  refine (θ_run Cert.ReferenceIdeal.defs _ _).mono (fun _ h c => ⟨(h c).1.trans ?_, (h c).2⟩)
    (Cert.GraphConv.Reference.run (F := Ideal) m' ρ')
  obtain ⟨h0, h1, h2, h3, h4, h5⟩ := hagree c
  rw [h0, h1, h2, h3, h4, h5, Cert.GraphConv.Reference.reshape_row128, Cert.GraphConv.Reference.reshape_row32]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
